-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32768 : Shape := ⟨2, ![512, 32768]⟩
abbrev S_ : Shape := ⟨0, ![]⟩

class Facts : Prop where
  bcast_S_S512x32768 : S_.BroadcastsInDim S512x32768 (![] : Fin 0 → Fin S512x32768.rank)
  reducesTo_S512x32768_S_d0_1 : S512x32768.ReducesTo [0, 1] S_
  h_S_ : 0 < S_.numel
  reducesTo_S_S_d : S_.ReducesTo [] S_

variable [Facts]

def fn {F : FTy → Type} [FloatOps F] (main_arg0 : FVec F S512x32768 .f32) (main_arg1 : FVec F S_ .f32) : IVec S_ 1 :=
  let main_v0 : FVec F S512x32768 .f32 := Host.absf main_arg0
  let main_cst : FVec F S_ .f32 := constant S_ .f32 0x7F800000#32
  let main_v1 : FVec F S512x32768 .f32 := broadcastInDim S512x32768 ![] bcast_S_S512x32768 main_cst
  let main_v2 : IVec S512x32768 1 := cmpf .olt main_v0 main_v1
  let main_c : IVec S_ 1 := constantI S_ 1 1#1
  let main_v3 : IVec S_ 1 := (fun x v => Host.reduce IntOp.andi x v reducesTo_S512x32768_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S512x32768 : Shape := ⟨2, ![512, 32768]⟩
abbrev S_ : Shape := ⟨0, ![]⟩
abbrev S1x1 : Shape := ⟨2, ![1, 1]⟩
abbrev S32x32768 : Shape := ⟨2, ![32, 32768]⟩
abbrev S32 : Shape := ⟨1, ![32]⟩
abbrev S32x1 : Shape := ⟨2, ![32, 1]⟩

abbrev nBuf : Space → Nat
  | .hbm => 11
  | .vmem => 5
  | .smem => 0
  | _ => 0

abbrev bufTy : (tb : Table) → Fin (tcTables nBuf tb) → BufTy
  | .hbm, ⟨0, _⟩ => ⟨S512x32768, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S512x32768, .f32⟩
  | .local _ .vmem, ⟨0, _⟩ => ⟨S1x1, .f32⟩
  | .local _ .vmem, ⟨1, _⟩ => ⟨S32x32768, .f32⟩
  | .local _ .vmem, ⟨2, _⟩ => ⟨S32x32768, .f32⟩
  | .local _ .vmem, ⟨3, _⟩ => ⟨S32x32768, .f32⟩
  | .local _ .vmem, ⟨4, _⟩ => ⟨S32x32768, .f32⟩
  | _, _ => ⟨S512x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S32x32768_S32x32768_0_0 : ∀ a, (![0, 0] : Fin 2 → Nat) a + S32x32768.size a ≤ S32x32768.size a
  h_S32x32768 : 0 < S32x32768.numel
  reduces_S32x32768_S32 : S32x32768.Reduces [1] S32
  shapeCasts_S32_S32x1 : S32.ShapeCasts S32x1
  broadcasts_S32x1_S32x32768 : S32x1.Broadcasts S32x32768
  rotates_S32x32768_d1 : S32x32768.Rotates 1 none
  iota_S32x32768_d1_w32 : S32x32768.Iotas .tc 32 [1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32768.size a ≤ S512x32768.size a
  hwx0_1 : ∀ i : grid0.Coords, EltTy.bits .f32 = 32 ∨ (Rect.block (s := S512x32768) S32x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32768.size a ≤ S512x32768.size a
  hwx0_2 : ∀ i : grid0.Coords, EltTy.bits .f32 = 32 ∨ (Rect.block (s := S512x32768) S32x32768.size (cc0_transform_2 i) (hinb0_2 i)).WholeWords (EltTy.packing .f32)

variable [Facts₀]

abbrev win0_0 : Pipeline.Window sig grid0 :=
  Pipeline.Window.ofSpec (Memref.whole main_v2) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x32768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x32768 : Shape := ⟨2, ![512, 32768]⟩
abbrev S_ : Shape := ⟨0, ![]⟩
abbrev S512 : Shape := ⟨1, ![512]⟩
abbrev S512x1 : Shape := ⟨2, ![512, 1]⟩
abbrev S512x32767 : Shape := ⟨2, ![512, 32767]⟩
abbrev S512x32766 : Shape := ⟨2, ![512, 32766]⟩
abbrev S512x2 : Shape := ⟨2, ![512, 2]⟩
abbrev S512x32765 : Shape := ⟨2, ![512, 32765]⟩
abbrev S512x3 : Shape := ⟨2, ![512, 3]⟩
abbrev S512x32764 : Shape := ⟨2, ![512, 32764]⟩
abbrev S512x4 : Shape := ⟨2, ![512, 4]⟩
abbrev S1 : Shape := ⟨1, ![1]⟩

abbrev nBuf : Space → Nat
  | .hbm => 95
  | .vmem => 0
  | .smem => 0
  | _ => 0

abbrev bufTy : (tb : Table) → Fin (tcTables nBuf tb) → BufTy
  | .hbm, ⟨0, _⟩ => ⟨S512x32768, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S512x32768, .f32⟩
  | .hbm, ⟨10, _⟩ => ⟨S512x32768, .f32⟩
  | .hbm, ⟨11, _⟩ => ⟨S512x32768, .f32⟩
  | .hbm, ⟨12, _⟩ => ⟨S512x32768, .f32⟩
  | .hbm, ⟨13, _⟩ => ⟨S_, .f32⟩
  | .hbm, ⟨14, _⟩ => ⟨S512x32768, .f32⟩
  | .hbm, ⟨15, _⟩ => ⟨S512x32768, .f32⟩
  | .hbm, ⟨16, _⟩ => ⟨S_, .f32⟩
  | .hbm, ⟨17, _⟩ => ⟨S512x32768, .f32⟩
  | .hbm, ⟨18, _⟩ => ⟨S512x32768, .f32⟩
  | .hbm, ⟨19, _⟩ => ⟨S_, .f32⟩
  | .hbm, ⟨20, _⟩ => ⟨S512, .f32⟩
  | .hbm, ⟨21, _⟩ => ⟨S512x1, .f32⟩
  | .hbm, ⟨22, _⟩ => ⟨S_, .f32⟩
  | .hbm, ⟨23, _⟩ => ⟨S_, .f32⟩
  | .hbm, ⟨24, _⟩ => ⟨S512x1, .f32⟩
  | .hbm, ⟨25, _⟩ => ⟨S512x1, .f32⟩
  | .hbm, ⟨26, _⟩ => ⟨S_, .f32⟩
  | .hbm, ⟨27, _⟩ => ⟨S512x1, .f32⟩
  | .hbm, ⟨28, _⟩ => ⟨S512x1, .f32⟩
  | .hbm, ⟨29, _⟩ => ⟨S_, .f32⟩
  | .hbm, ⟨30, _⟩ => ⟨S512x1, .f32⟩
  | .hbm, ⟨31, _⟩ => ⟨S512x1, .f32⟩
  | .hbm, ⟨32, _⟩ => ⟨S512x32768, .f32⟩
  | .hbm, ⟨33, _⟩ => ⟨S512x32768, .f32⟩
  | .hbm, ⟨34, _⟩ => ⟨S512x32767, .f32⟩
  | .hbm, ⟨35, _⟩ => ⟨S512x1, .f32⟩
  | .hbm, ⟨36, _⟩ => ⟨S512x32768, .f32⟩
  | .hbm, ⟨37, _⟩ => ⟨S_, .f32⟩
  | .hbm, ⟨38, _⟩ => ⟨S512x32768, .f32⟩
  | .hbm, ⟨39, _⟩ => ⟨S512x32768, .f32⟩
  | .hbm, ⟨40, _⟩ => ⟨S512x32768, .f32⟩
  | .hbm, ⟨41, _⟩ => ⟨S_, .f32⟩
  | .hbm, ⟨42, _⟩ => ⟨S512x32768, .f32⟩
  | .hbm, ⟨43, _⟩ => ⟨S512x32768, .f32⟩
  | .hbm, ⟨44, _⟩ => ⟨S_, .f32⟩
  | .hbm, ⟨45, _⟩ => ⟨S512x32768, .f32⟩
  | .hbm, ⟨46, _⟩ => ⟨S512x32768, .f32⟩
  | .hbm, ⟨47, _⟩ => ⟨S512x32768, .f32⟩
  | .hbm, ⟨48, _⟩ => ⟨S512x32766, .f32⟩
  | .hbm, ⟨49, _⟩ => ⟨S512x2, .f32⟩
  | .hbm, ⟨50, _⟩ => ⟨S512x32768, .f32⟩
  | .hbm, ⟨51, _⟩ => ⟨S_, .f32⟩
  | .hbm, ⟨52, _⟩ => ⟨S512x32768, .f32⟩
  | .hbm, ⟨53, _⟩ => ⟨S512x32768, .f32⟩
  | .hbm, ⟨54, _⟩ => ⟨S512x32768, .f32⟩
  | .hbm, ⟨55, _⟩ => ⟨S_, .f32⟩
  | .hbm, ⟨56, _⟩ => ⟨S512x32768, .f32⟩
  | .hbm, ⟨57, _⟩ => ⟨S512x32768, .f32⟩
  | .hbm, ⟨58, _⟩ => ⟨S_, .f32⟩
  | .hbm, ⟨59, _⟩ => ⟨S512x32768, .f32⟩
  | .hbm, ⟨60, _⟩ => ⟨S512x32768, .f32⟩
  | .hbm, ⟨61, _⟩ => ⟨S512x32768, .f32⟩
  | .hbm, ⟨62, _⟩ => ⟨S512x32765, .f32⟩
  | .hbm, ⟨63, _⟩ => ⟨S512x3, .f32⟩
  | .hbm, ⟨64, _⟩ => ⟨S512x32768, .f32⟩
  | .hbm, ⟨65, _⟩ => ⟨S_, .f32⟩
  | .hbm, ⟨66, _⟩ => ⟨S512x32768, .f32⟩
  | .hbm, ⟨67, _⟩ => ⟨S512x32768, .f32⟩
  | .hbm, ⟨68, _⟩ => ⟨S512x32768, .f32⟩
  | .hbm, ⟨69, _⟩ => ⟨S_, .f32⟩
  | .hbm, ⟨70, _⟩ => ⟨S512x32768, .f32⟩
  | .hbm, ⟨71, _⟩ => ⟨S512x32768, .f32⟩
  | .hbm, ⟨72, _⟩ => ⟨S_, .f32⟩
  | .hbm, ⟨73, _⟩ => ⟨S512x32768, .f32⟩
  | .hbm, ⟨74, _⟩ => ⟨S512x32768, .f32⟩
  | .hbm, ⟨75, _⟩ => ⟨S512x32768, .f32⟩
  | .hbm, ⟨76, _⟩ => ⟨S512x32764, .f32⟩
  | .hbm, ⟨77, _⟩ => ⟨S512x4, .f32⟩
  | .hbm, ⟨78, _⟩ => ⟨S512x32768, .f32⟩
  | .hbm, ⟨79, _⟩ => ⟨S_, .f32⟩
  | .hbm, ⟨80, _⟩ => ⟨S512x32768, .f32⟩
  | .hbm, ⟨81, _⟩ => ⟨S512x32768, .f32⟩
  | .hbm, ⟨82, _⟩ => ⟨S512x32768, .f32⟩
  | .hbm, ⟨83, _⟩ => ⟨S_, .f32⟩
  | .hbm, ⟨84, _⟩ => ⟨S512x32768, .f32⟩
  | .hbm, ⟨85, _⟩ => ⟨S512x32768, .f32⟩
  | .hbm, ⟨86, _⟩ => ⟨S_, .f32⟩
  | .hbm, ⟨87, _⟩ => ⟨S512x32768, .f32⟩
  | .hbm, ⟨88, _⟩ => ⟨S512x32768, .f32⟩
  | .hbm, ⟨89, _⟩ => ⟨S512x32768, .f32⟩
  | .hbm, ⟨90, _⟩ => ⟨S_, .i32⟩
  | .hbm, ⟨91, _⟩ => ⟨S1, .i32⟩
  | .hbm, ⟨92, _⟩ => ⟨S_, .f32⟩
  | .hbm, ⟨93, _⟩ => ⟨S512, .f32⟩
  | .hbm, ⟨94, _⟩ => ⟨S512x32768, .f32⟩
  | _, _ => ⟨S512x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call2_v0 : Ref sig .tc := ⟨.hbm, 34, rfl⟩
abbrev main_call2_v1 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_8 : Ref sig .tc := ⟨.hbm, 41, rfl⟩
abbrev main_v23 : Ref sig .tc := ⟨.hbm, 42, rfl⟩
abbrev main_v24 : Ref sig .tc := ⟨.hbm, 43, rfl⟩
abbrev main_cst_9 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call3_v0 : Ref sig .tc := ⟨.hbm, 48, rfl⟩
abbrev main_call3_v1 : Ref sig .tc := ⟨.hbm, 49, rfl⟩
abbrev main_v28 : Ref sig .tc := ⟨.hbm, 50, rfl⟩
abbrev main_cst_10 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_11 : Ref sig .tc := ⟨.hbm, 55, rfl⟩
abbrev main_v32 : Ref sig .tc := ⟨.hbm, 56, rfl⟩
abbrev main_v33 : Ref sig .tc := ⟨.hbm, 57, rfl⟩
abbrev main_cst_12 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call4_v0 : Ref sig .tc := ⟨.hbm, 62, rfl⟩
abbrev main_call4_v1 : Ref sig .tc := ⟨.hbm, 63, rfl⟩
abbrev main_v37 : Ref sig .tc := ⟨.hbm, 64, rfl⟩
abbrev main_cst_13 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_14 : Ref sig .tc := ⟨.hbm, 69, rfl⟩
abbrev main_v41 : Ref sig .tc := ⟨.hbm, 70, rfl⟩
abbrev main_v42 : Ref sig .tc := ⟨.hbm, 71, rfl⟩
abbrev main_cst_15 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_call5_v0 : Ref sig .tc := ⟨.hbm, 76, rfl⟩
abbrev main_call5_v1 : Ref sig .tc := ⟨.hbm, 77, rfl⟩
abbrev main_v46 : Ref sig .tc := ⟨.hbm, 78, rfl⟩
abbrev main_cst_16 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_17 : Ref sig .tc := ⟨.hbm, 83, rfl⟩
abbrev main_v50 : Ref sig .tc := ⟨.hbm, 84, rfl⟩
abbrev main_v51 : Ref sig .tc := ⟨.hbm, 85, rfl⟩
abbrev main_cst_18 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c : Ref sig .tc := ⟨.hbm, 90, rfl⟩
abbrev main_v55 : Ref sig .tc := ⟨.hbm, 91, rfl⟩
abbrev main_cst_19 : Ref sig .tc := ⟨.hbm, 92, rfl⟩
abbrev main_v56 : Ref sig .tc := ⟨.hbm, 93, rfl⟩
abbrev main_v57 : Ref sig .tc := ⟨.hbm, 94, rfl⟩

abbrev nD : Nat := 1
abbrev τ : Topo := Topo.v7x

variable {F : FTy → Type} [FloatOps F]

class Facts₀ : Prop where
  bcast_S_S512x32768 : S_.BroadcastsInDim S512x32768 (![] : Fin 0 → Fin S512x32768.rank)
  reducesTo_S512x32768_S512_d1 : S512x32768.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x32768_0_1 : S512x1.BroadcastsInDim S512x32768 (![0, 1] : Fin 2 → Fin S512x32768.rank)
  slices_S512x32768_S512x32767_0_1 : S512x32768.Slices ![0, 1] S512x32767
  slices_S512x32768_S512x1_0_0 : S512x32768.Slices ![0, 0] S512x1
  concatenates_S512x32767_S512x1_S512x32768_d1 : Shape.Concatenates [S512x32767, S512x1] S512x32768 1
  slices_S512x32768_S512x32766_0_2 : S512x32768.Slices ![0, 2] S512x32766
  slices_S512x32768_S512x2_0_0 : S512x32768.Slices ![0, 0] S512x2
  concatenates_S512x32766_S512x2_S512x32768_d1 : Shape.Concatenates [S512x32766, S512x2] S512x32768 1
  slices_S512x32768_S512x32765_0_3 : S512x32768.Slices ![0, 3] S512x32765
  slices_S512x32768_S512x3_0_0 : S512x32768.Slices ![0, 0] S512x3
  concatenates_S512x32765_S512x3_S512x32768_d1 : Shape.Concatenates [S512x32765, S512x3] S512x32768 1
  slices_S512x32768_S512x32764_0_4 : S512x32768.Slices ![0, 4] S512x32764
  slices_S512x32768_S512x4_0_0 : S512x32768.Slices ![0, 0] S512x4
  concatenates_S512x32764_S512x4_S512x32768_d1 : Shape.Concatenates [S512x32764, S512x4] S512x32768 1
  bcast_S_S1 : S_.BroadcastsInDim S1 (![] : Fin 0 → Fin S1.rank)
  bcast_S_S512 : S_.BroadcastsInDim S512 (![] : Fin 0 → Fin S512.rank)
  scatter_S512x32768_S1_S512_0_1_1_0_wf : ScatterDims.WF S512x32768 S1 S512 [0] [1] [1] 0

variable [Facts₀]

def scatter_S512x32768_S1_S512_0_1_1_0 : ScatterDims S512x32768 S1 S512 where
  updateWindowDims := [0]
  insertedWindowDims := [1]
  scatterDimsToOperandDims := [1]
  indexVectorDim := 0
  wf := scatter_S512x32768_S1_S512_0_1_1_0_wf

class Facts : Prop extends Facts₀ where

variable [Facts]
-- ==== Proof.RowSpec.lean ====
/-
  A soft top-K selector with neighbour damping, one row at a time, on the extended reals.

  A row of scores `x` (32768 columns) and a temperature `τ` give
    s(c)   = logistic (x(c) / τ)
    B      = max (ε, Σ_c s(c))
    y₀(c)  = s(c) · min (64 / B, 1)
    y_d(c) = y_{d-1}(c) · min (2 / ((1 + y_{d-1}(c)) + y_{d-1}(c + d)), 1)      for d = 1, 2, 3, 4,
  the column `c + d` counted around the end of the row, and the selected row is `0` in column 0 and `y₄` in every
  other column. Division is the extended reals' `Ideal.div`, the constants are the exact values of their binary32
  words, and the temperature is `min (10, max (0.1, exp t))` of the one log-temperature `t`.

  Nothing here needs the scores to be finite: each step is ONE expression of the row, and the two programs compared
  against this specification compute that same expression.
-/
import Idealize.ShloMosaic.PureOps.Ideal
import Idealize.ShloMosaic.PureOps.Ideal.Laws
import Idealize.ShloMosaic.Lib.ValueIdx

noncomputable section

namespace Cert.Selector

open Idealize.ShloMosaic

/-- One row: a value per column. -/
abbrev Row : Type := Fin 32768 → EReal

/-- Row `p` of a matrix of `R` rows and 32768 columns. -/
def rowOf {R : ℕ} (v : FVec Ideal ⟨2, ![R, 32768]⟩ .f32) (p : Fin R) : Row := fun c => v (ValueIdx.ix2 p c)

/-- Column `c` moved `d` places on, around the end of the row. -/
def shiftCol (d : ℕ) (c : Fin 32768) : Fin 32768 := ⟨(c.val + d) % 32768, Nat.mod_lt _ (by decide)⟩

/-- `s(c) = logistic (x(c) / τ)`. -/
def sigRow (temp : EReal) (x : Row) : Row := fun c => Ideal.logistic (Ideal.div (x c) temp)

/-- The row's budget `B = max (ε, Σ_c s(c))`, `ε` the binary32 word nearest to 10⁻⁶. -/
def budget (s : Row) : EReal := max (Ideal.ofBits .f32 0x358637BD#32) (∑ c : Fin 32768, s c)

/-- `y₀(c) = s(c) · min (64 / B, 1)`: the row scaled toward a total of 64. -/
def scaleRow (s : Row) : Row := fun c =>
  s c * min (Ideal.div (Ideal.ofBits .f32 0x42800000#32) (budget s)) (Ideal.ofBits .f32 0x3F800000#32)

/-- One damping pass at distance `d`: `y(c) · min (2 / ((1 + y(c)) + y(c + d)), 1)`. -/
def dampRow (d : ℕ) (y : Row) : Row := fun c =>
  y c * min (Ideal.div (Ideal.ofBits .f32 0x40000000#32)
      ((Ideal.ofBits .f32 0x3F800000#32 + y c) + y (shiftCol d c))) (Ideal.ofBits .f32 0x3F800000#32)

/-- The selected row: column 0 cleared, the four damping passes of the scaled row elsewhere. -/
def selectRow (temp : EReal) (x : Row) : Row := fun c =>
  if c.val = 0 then Ideal.ofBits .f32 0x00000000#32
  else dampRow 4 (dampRow 3 (dampRow 2 (dampRow 1 (scaleRow (sigRow temp x))))) c

/-- The selected matrix: entry `(r, c)` is entry `c` of the selected row of row `r` of the scores. -/
def selectMatrix (temp : EReal) (A : FVec Ideal ⟨2, ![512, 32768]⟩ .f32) : FVec Ideal ⟨2, ![512, 32768]⟩ .f32 :=
  fun i => selectRow temp (rowOf A ⟨(i 0).val, (i 0).isLt⟩) ⟨(i 1).val, (i 1).isLt⟩

theorem selectMatrix_apply (temp : EReal) (A : FVec Ideal ⟨2, ![512, 32768]⟩ .f32) (r : Fin 512) (c : Fin 32768) :
    selectMatrix temp A (ValueIdx.ix2 r c) = selectRow temp (rowOf A r) c := rfl

/-- The temperature: `exp t` clipped to `[0.1, 10]` (the binary32 words of the two bounds). -/
def temperature (t : EReal) : EReal :=
  min (Ideal.ofBits .f32 0x41200000#32) (max (Ideal.ofBits .f32 0x3DCCCCCD#32) (Ideal.exp t))

/-- The binary32 word of 1.0 is the real number 1. -/
theorem ofBits_one : Ideal.ofBits .f32 0x3F800000#32 = 1 := by
  simp [Ideal.ofBits, Ideal.ieee]
  rw [← EReal.coe_mul]
  norm_num

/-- The logistic function written out with the word of 1.0 — `1.0 / (1.0 + exp (−z))` — is `Ideal.logistic z`. -/
theorem logistic_spelled (z : EReal) :
    Ideal.div (Ideal.ofBits .f32 0x3F800000#32) (Ideal.ofBits .f32 0x3F800000#32 + Ideal.exp (-z)) = Ideal.logistic z := by
  rw [ofBits_one]; rfl

end Cert.Selector

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.LibRoll.lean ====
/-
  A circular shift of the columns of a matrix of `R` rows and `N` columns, in the two spellings programs use, read by
  coordinates. Imports only the Idealize library.

  * The HOST's `jnp.roll(x, -d, axis=1)` lowers to two slices and a concatenate: columns `d … N − 1` of the matrix
    followed by columns `0 … d − 1` (the matrix cut after `d` columns and rejoined the other way round).
    `hostRoll_apply`: entry `(p, c)` of the joined matrix is entry `(p, (c + d) mod N)` of the matrix.
  * A KERNEL's `pltpu.roll(x, shift = N − d, axis=1)` on a block that holds whole rows is a rotation along the rows by
    the amount `N − d`. `kernelRoll_apply`: entry `(p, c)` of the rotated block is entry `(p, (c + d) mod N)` of the
    block — the rotation never leaves the row.
  So the two read the same entry, and a value computed from a matrix and its roll is the same function of a row on
  both sides.
-/
import Idealize.ShloMosaic.Lib.ValueIdx
import Idealize.ShloMosaic.Lib.KernelVsHost
import Idealize.ShloMosaic.Lib.Pipeline.Value

noncomputable section

namespace Cert.LibRoll

open Idealize.ShloMosaic Idealize.ShloMosaic.ValueIdx

/-- Column `c` of `N` moved `d` places on, around the end. -/
def shift {N : ℕ} (d : ℕ) (c : Fin N) : Fin N := ⟨(c.val + d) % N, Nat.mod_lt _ (Nat.lt_of_le_of_lt (Nat.zero_le _) c.isLt)⟩

theorem shift_val {N : ℕ} (d : ℕ) (c : Fin N) : (shift d c).val = (c.val + d) % N := rfl

/-- The host's roll by `−n₂` along the columns — the matrix cut after `n₂` columns and rejoined the other way round —
    at `(p, c)`: the matrix at `(p, c + n₂)`, the column counted around the end. -/
theorem hostRoll_apply {α : Type} {R n1 n2 N : ℕ} (hn : n1 + n2 = N) (y : (⟨2, ![R, N]⟩ : Shape).Idx → α)
    (hs1 : (⟨2, ![R, N]⟩ : Shape).Slices ![0, n2] ⟨2, ![R, n1]⟩)
    (hs2 : (⟨2, ![R, N]⟩ : Shape).Slices ![0, 0] ⟨2, ![R, n2]⟩)
    (hcat : Shape.Concatenates [⟨2, ![R, n1]⟩, ⟨2, ![R, n2]⟩] ⟨2, ![R, N]⟩ 1) (p : Fin R) (c : Fin N) :
    concatenate ⟨2, ![R, N]⟩ 1
        [⟨⟨2, ![R, n1]⟩, extractStridedSlice ⟨2, ![R, n1]⟩ ![0, n2] y hs1⟩,
         ⟨⟨2, ![R, n2]⟩, extractStridedSlice ⟨2, ![R, n2]⟩ ![0, 0] y hs2⟩] hcat (ix2 p c)
      = y (ix2 p (shift n2 c)) := by
  have hc := c.isLt
  by_cases hlt : c.val < n1
  · -- in the first piece: columns `n₂ …` of the matrix
    refine (concatenate_pair_apply_left (t := ⟨2, ![R, N]⟩) (s₁ := ⟨2, ![R, n1]⟩) (s₂ := ⟨2, ![R, n2]⟩)
      (1 : Fin 2) _ _ hcat (ix2 p c) rfl (ix2 p (⟨c.val, hlt⟩ : Fin n1)) (fun b => by
      match b with
      | ⟨0, _⟩ => rfl
      | ⟨1, _⟩ => rfl)).trans ?_
    refine extractStridedSlice_apply ![0, n2] y hs1 _ (ix2 p (shift n2 c)) (fun a => ?_)
    match a with
    | ⟨0, _⟩ => show p.val = 0 + p.val; omega
    | ⟨1, _⟩ =>
      show (c.val + n2) % N = n2 + c.val
      rw [Nat.mod_eq_of_lt (by omega)]; omega
  · -- in the second piece: the first `n₂` columns of the matrix
    have hge : n1 ≤ c.val := Nat.le_of_not_lt hlt
    refine (concatenate_pair_apply_right (t := ⟨2, ![R, N]⟩) (s₁ := ⟨2, ![R, n1]⟩) (s₂ := ⟨2, ![R, n2]⟩)
      (1 : Fin 2) _ _ hcat (ix2 p c) rfl rfl
      (ix2 p (⟨c.val - n1, by omega⟩ : Fin n2)) (fun b hb => by
        match b with
        | ⟨0, _⟩ => rfl
        | ⟨1, _⟩ => exact absurd rfl hb) (by
        show (c.val - n1) + n1 = c.val
        omega)).trans ?_
    refine extractStridedSlice_apply ![0, 0] y hs2 _ (ix2 p (shift n2 c)) (fun a => ?_)
    match a with
    | ⟨0, _⟩ => show p.val = 0 + p.val; omega
    | ⟨1, _⟩ =>
      show (c.val + n2) % N = 0 + (c.val - n1)
      have e : c.val + n2 = N + (c.val - n1) := by omega
      rw [e, Nat.add_mod_left, Nat.mod_eq_of_lt (by omega)]; omega

/-- A kernel's rotation of a block of whole rows along the rows by the amount `N − d` (`0 < d < N`), at `(p, c)`: the
    block at `(p, c + d)`, the column counted around the end. -/
theorem kernelRoll_apply {α : Type} {R N : ℕ} (d : ℕ) (hd : 0 < d) (hd' : d < N) (sb : BitVec 32) (hsb : sb.toNat = N - d)
    (y : (⟨2, ![R, N]⟩ : Shape).Idx → α) (hrot : (⟨2, ![R, N]⟩ : Shape).Rotates 1 none) (p : Fin R) (c : Fin N) :
    dynamicRotate 1 sb none y hrot (ix2 p c) = y (ix2 p (shift d c)) :=
  dynamicRotate_apply 1 sb y hrot (ix2 p c) (ix2 p (shift d c)) (fun b => by
    match b with
    | ⟨0, _⟩ => rfl
    | ⟨1, _⟩ =>
      show (c.val + d) % N = (c.val + N - sb.toNat % N) % N
      rw [hsb]
      have e : (N - d) % N = N - d := Nat.mod_eq_of_lt (by omega)
      rw [e]
      congr 1
      omega)

end Cert.LibRoll

end
-- ==== Proof.KernelSteps.lean ====
/-
  The selector's steps as a kernel computes them on a block of `R` whole rows (all 32768 columns of each), read row
  by row against the row specification.

  Each step below is the vector expression the kernel's body spells — a quotient by the splat temperature and the
  logistic function; the lane sum of every row kept as a column, clipped below, divided into 64, capped at 1 and
  broadcast back along the row; one damping pass, whose neighbour is a rotation of the block along its rows by
  `32768 − d` places; and the iota mask that clears column 0. Because a block holds whole rows, a rotation along the
  rows never leaves the row: entry `(p, c)` of the rotated block is entry `(p, c + d)` of the block, the column counted
  around the end. So every step, read at `(p, c)`, is the row step applied to row `p`.
-/
import Idealize.ShloMosaic.Lib.ValueIdx
import Idealize.ShloMosaic.Lib.KernelVsHost
import proofs.«151350_j7705171329190_1_alg».proof.Proof.RowSpec
import proofs.«151350_j7705171329190_1_alg».proof.Proof.LibColumns
import proofs.«151350_j7705171329190_1_alg».proof.Proof.LibRoll

noncomputable section

namespace Cert.Selector

open Idealize.ShloMosaic Idealize.ShloMosaic.ValueIdx

variable {R : ℕ}

/-- The logistic function of the block divided by the splat temperature. -/
def kSig (temp : Ideal .f32) (x : FVec Ideal ⟨2, ![R, 32768]⟩ .f32) : FVec Ideal ⟨2, ![R, 32768]⟩ .f32 :=
  logistic (divf x (broadcast ⟨2, ![R, 32768]⟩ temp))

/-- Every row scaled by `min (64 / max (ε, its lane sum), 1)`, the sums kept as a column and broadcast back. -/
def kScale (s : FVec Ideal ⟨2, ![R, 32768]⟩ .f32)
    (hred : (⟨2, ![R, 32768]⟩ : Shape).Reduces [1] ⟨1, ![R]⟩)
    (hcast : (⟨1, ![R]⟩ : Shape).ShapeCasts ⟨2, ![R, 1]⟩)
    (hb : (⟨2, ![R, 1]⟩ : Shape).Broadcasts ⟨2, ![R, 32768]⟩) : FVec Ideal ⟨2, ![R, 32768]⟩ .f32 :=
  mulf s (broadcastTo ⟨2, ![R, 32768]⟩
    (minimumf
      (divf (broadcast ⟨2, ![R, 1]⟩ (Scalar.ofBits .f32 0x42800000#32))
        (maximumf (broadcast ⟨2, ![R, 1]⟩ (Scalar.ofBits .f32 0x358637BD#32))
          (shapeCast ⟨2, ![R, 1]⟩ (multiReduction .add [1] ⟨1, ![R]⟩ s 0x00000000#32 hred (.inl rfl) rfl) hcast)))
      (broadcast ⟨2, ![R, 1]⟩ (Scalar.ofBits .f32 0x3F800000#32))) hb)

/-- One damping pass, the neighbour read through a rotation of the block along its rows by the amount `sb`. -/
def kDamp (sb : BitVec 32) (y : FVec Ideal ⟨2, ![R, 32768]⟩ .f32)
    (hrot : (⟨2, ![R, 32768]⟩ : Shape).Rotates 1 none) : FVec Ideal ⟨2, ![R, 32768]⟩ .f32 :=
  mulf y (minimumf
    (divf (broadcast ⟨2, ![R, 32768]⟩ (Scalar.ofBits .f32 0x40000000#32))
      (addf (addf (broadcast ⟨2, ![R, 32768]⟩ (Scalar.ofBits .f32 0x3F800000#32)) y)
        (dynamicRotate 1 sb none y hrot)))
    (broadcast ⟨2, ![R, 32768]⟩ (Scalar.ofBits .f32 0x3F800000#32)))

/-- Column 0 cleared: where the column number is 0 the zero word, the block elsewhere. -/
def kClear (y : FVec Ideal ⟨2, ![R, 32768]⟩ .f32)
    (hiota : (⟨2, ![R, 32768]⟩ : Shape).Iotas .tc 32 [1]) : FVec Ideal ⟨2, ![R, 32768]⟩ .f32 :=
  select (cmpi .eq (iota .tc ⟨2, ![R, 32768]⟩ 32 [1] hiota) (broadcast ⟨2, ![R, 32768]⟩ (0#32 : BitVec 32)))
    (broadcast ⟨2, ![R, 32768]⟩ (Scalar.ofBits .f32 0x00000000#32)) y

/-- Row `p` of the logistic step is the row step of row `p`. -/
theorem rowOf_kSig (temp : Ideal .f32) (x : FVec Ideal ⟨2, ![R, 32768]⟩ .f32) (p : Fin R) :
    rowOf (kSig temp x) p = sigRow temp (rowOf x p) := rfl

/-- Row `p` of the scaled block is the scaled row `p`: the column broadcast back reads row `p`'s own lane sum. -/
theorem rowOf_kScale (s : FVec Ideal ⟨2, ![R, 32768]⟩ .f32)
    (hred : (⟨2, ![R, 32768]⟩ : Shape).Reduces [1] ⟨1, ![R]⟩)
    (hcast : (⟨1, ![R]⟩ : Shape).ShapeCasts ⟨2, ![R, 1]⟩)
    (hb : (⟨2, ![R, 1]⟩ : Shape).Broadcasts ⟨2, ![R, 32768]⟩) (p : Fin R) :
    rowOf (kScale s hred hcast hb) p = scaleRow (rowOf s p) := by
  funext c
  have hsum : shapeCast ⟨2, ![R, 1]⟩ (multiReduction .add [1] ⟨1, ![R]⟩ s 0x00000000#32 hred (.inl rfl) rfl) hcast
      (ix2 p (0 : Fin 1)) = ∑ k : Fin 32768, s (ix2 p k) :=
    (LibColumns.shapeCast_a_a1_apply _ hcast p 0).trans
      (LibColumns.multiReduction_add_rows_apply s 0x00000000#32 hred (.inl rfl) rfl p)
  show s (ix2 p c) * broadcastTo ⟨2, ![R, 32768]⟩ _ hb (ix2 p c) = _
  rw [LibColumns.broadcastTo_a1_ab_apply]
  show s (ix2 p c) * min (Ideal.div (Ideal.ofBits .f32 0x42800000#32)
      (max (Ideal.ofBits .f32 0x358637BD#32)
        (shapeCast ⟨2, ![R, 1]⟩ (multiReduction .add [1] ⟨1, ![R]⟩ s 0x00000000#32 hred (.inl rfl) rfl) hcast
          (ix2 p (0 : Fin 1))))) (Ideal.ofBits .f32 0x3F800000#32) = _
  rw [hsum]
  rfl

/-- Row `p` of a damping pass whose rotation amount is `32768 − d` is the row's damping pass at distance `d`. -/
theorem rowOf_kDamp (d : ℕ) (hd : 0 < d) (hd' : d < 32768) (sb : BitVec 32) (hsb : sb.toNat = 32768 - d)
    (y : FVec Ideal ⟨2, ![R, 32768]⟩ .f32) (hrot : (⟨2, ![R, 32768]⟩ : Shape).Rotates 1 none) (p : Fin R) :
    rowOf (kDamp sb y hrot) p = dampRow d (rowOf y p) := by
  funext c
  have hr : dynamicRotate 1 sb none y hrot (ix2 p c) = y (ix2 p (shiftCol d c)) :=
    LibRoll.kernelRoll_apply d hd hd' sb hsb y hrot p c
  show y (ix2 p c) * min (Ideal.div (Ideal.ofBits .f32 0x40000000#32)
      ((Ideal.ofBits .f32 0x3F800000#32 + y (ix2 p c)) + dynamicRotate 1 sb none y hrot (ix2 p c)))
      (Ideal.ofBits .f32 0x3F800000#32) = _
  rw [hr]
  rfl

/-- The cleared block at `(p, c)`: the zero word in column 0, the block elsewhere. -/
theorem kClear_apply (y : FVec Ideal ⟨2, ![R, 32768]⟩ .f32)
    (hiota : (⟨2, ![R, 32768]⟩ : Shape).Iotas .tc 32 [1]) (p : Fin R) (c : Fin 32768) :
    kClear y hiota (ix2 p c) = if c.val = 0 then Ideal.ofBits .f32 0x00000000#32 else y (ix2 p c) := by
  show Scalar.select (IntOp.cmpi .eq (BitVec.ofNat 32 (0 * 32768 + c.val)) (0#32 : BitVec 32))
    (Ideal.ofBits .f32 0x00000000#32) (y (ix2 p c)) = _
  have hc := c.isLt
  by_cases h0 : c.val = 0
  · rw [if_pos h0, h0]; rfl
  · rw [if_neg h0]
    have hne : (BitVec.ofNat 32 (0 * 32768 + c.val) == (0#32 : BitVec 32)) = false := by
      rw [beq_eq_false_iff_ne]
      intro e
      have := congrArg BitVec.toNat e
      simp only [BitVec.toNat_ofNat, Nat.zero_mul, Nat.zero_add, BitVec.toNat_ofNat] at this
      omega
    show (if BitVec.ofBool (BitVec.ofNat 32 (0 * 32768 + c.val) == (0#32 : BitVec 32)) = 1 then _ else _) = _
    rw [hne]
    rfl

end Cert.Selector

end
-- ==== Proof.KernelValue.lean ====
/-
  What the kernel leaves in its result array: the selected matrix of the scores at the clipped temperature.

  The grid has 16 points; point `t` works on rows `32 t … 32 t + 31` of the scores, all 32768 columns of each, and
  on the one-entry temperature array, and writes back rows `32 t … 32 t + 31` of the result. The value it stores is
  the composition of the selector's steps on its block, so entry `(p, q)` of what point `t` writes back is entry `q`
  of the selected row of the block's row `p`, which is row `32 t + p` of the scores. The 16 blocks tile the result
  array (row `r` lies in the block of point `r / 32`), so the array ends as the selected matrix. The temperature
  array the blocks read is what the host operations in front of the kernel computed: `min (10, max (0.1, exp t))`,
  reshaped to one row and one column.
-/
import proofs.«151350_j7705171329190_1_alg».proof.Proof.Gen.KernelIdeal.Value
import proofs.«151350_j7705171329190_1_alg».proof.Proof.KernelSteps
import Idealize.ShloMosaic.Lib.StableHlo.Run
import Idealize.ShloMosaic.Lib.Pipeline.Value

set_option maxRecDepth 16384

noncomputable section

namespace Cert.Selector

open Idealize.ShloMosaic Idealize.ShloMosaic.TcCoe Idealize.SL.Sem Idealize.ShloMosaic.ValueIdx
open Idealize.ShloMosaic.StableHlo
open Cert.KernelIdeal Cert.KernelIdeal.Gen
open Idealize.ShloMosaic.Pipeline (Dat)

variable (m : (ℓ : Loc nD τ sig) → Buf (Elt Ideal) ℓ) (ρ : Dev nD → PrngReg)

/-! ## The stored value of one grid point -/

/-- The value the body stores is the composition of the selector's steps on its block of 32 rows. -/
theorem payload_eq (x0 : Vec Ideal S1x1 .f32) (x1 : Vec Ideal S32x32768 .f32) :
    k0_pay1 (k0_pay2 x0 x1) (k0_pay3 x0 x1)
      = kClear (kDamp 32764#32 (kDamp 32765#32 (kDamp 32766#32 (kDamp 32767#32
          (kScale (kSig (extractAt ![0, 0] x0 inpos_S1x1_p0_0) x1)
            reduces_S32x32768_S32 shapeCasts_S32_S32x1 broadcasts_S32x1_S32x32768)
          rotates_S32x32768_d1) rotates_S32x32768_d1) rotates_S32x32768_d1) rotates_S32x32768_d1)
          iota_S32x32768_d1_w32 := rfl

/-- At `(p, q)` the stored value is entry `q` of the selected row of the block's row `p`, at the temperature the
    one-entry block holds. -/
theorem payload_apply (x0 : Vec Ideal S1x1 .f32) (x1 : Vec Ideal S32x32768 .f32) (p : Fin 32) (q : Fin 32768) :
    k0_pay1 (k0_pay2 x0 x1) (k0_pay3 x0 x1) (ix2 p q)
      = selectRow (extractAt ![0, 0] x0 inpos_S1x1_p0_0) (rowOf x1 p) q := by
  rw [payload_eq, kClear_apply]
  unfold selectRow
  by_cases h0 : q.val = 0
  · rw [if_pos h0, if_pos h0]
  · rw [if_neg h0, if_neg h0]
    show rowOf (kDamp 32764#32 _ rotates_S32x32768_d1) p q = _
    rw [rowOf_kDamp 4 (by decide) (by decide) 32764#32 (by decide),
      rowOf_kDamp 3 (by decide) (by decide) 32765#32 (by decide),
      rowOf_kDamp 2 (by decide) (by decide) 32766#32 (by decide),
      rowOf_kDamp 1 (by decide) (by decide) 32767#32 (by decide),
      rowOf_kScale, rowOf_kSig]

/-! ## From the 16 blocks to the array -/

theorem origin_eq : (![0, 0] : Fin 2 → Nat) = fun _ => 0 := funext fun a => by fin_cases a <;> rfl

/-- The printed index maps, decided over the grid: the temperature's block is always the whole one-entry array, and
    the scores' and the result's block at point `t` is block row `t`, block column 0. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the selected matrix of the scores, at the temperature the host
    operations left in the one-entry array. -/
theorem flushed_eq (c : Dev nD) (t : Fin cfg0.N) :
    (dats m 0 c).flushed 2 t = ((cfg0.win 2).blk t).view.read (Elt Ideal)
      (selectMatrix (V m c main_v2 (ix2 (0 : Fin 1) (0 : Fin 1))) (V m c main_arg0)) := by
  rw [Cert.KernelIdeal.Value.flushed2]
  unfold out0_2
  rw [View.canon_unit_zero origin_eq]
  simp only [View.ld_unit_zero (S := S1x1) origin_eq, View.ld_unit_zero (S := S32x32768) origin_eq]
  obtain ⟨e00, e01, e10, e11, e20, e21⟩ := idx_facts t
  funext j
  obtain ⟨p, q, rfl⟩ : ∃ (p : Fin 32) (q : Fin 32768), j = ix2 p q := ⟨j 0, j 1, eq_ix2 j⟩
  show k0_pay1 (k0_pay2 (iblk m c 0 t) (iblk m c 1 t)) (k0_pay3 (iblk m c 0 t) (iblk m c 1 t)) (ix2 p q)
    = selectMatrix (V m c main_v2 (ix2 (0 : Fin 1) (0 : Fin 1))) (V m c main_arg0)
        (((cfg0.win 2).blk t).view.emb (ix2 p q))
  refine (payload_apply (iblk m c 0 t) (iblk m c 1 t) p q).trans ?_
  have hp := p.isLt
  have hq := q.isLt
  have ht := t.isLt
  have hN : grid0.N = 16 := N_0
  -- the temperature block is the whole one-entry array
  have htemp : extractAt ![0, 0] (iblk m c 0 t) inpos_S1x1_p0_0 = V m c main_v2 (ix2 (0 : Fin 1) (0 : Fin 1)) := by
    show V m c main_v2 (((cfg0.win 0).blk t).view.emb (fun a => ⟨(![0, 0] : Fin 2 → Nat) a, inpos_S1x1_p0_0 a⟩)) = _
    refine congrArg (V m c main_v2) (funext fun a => Fin.ext ?_)
    match a with
    | ⟨0, _⟩ => show win0_0.index t (0 : Fin 2) * 1 + 1 * 0 = 0; omega
    | ⟨1, _⟩ => show win0_0.index t (1 : Fin 2) * 1 + 1 * 0 = 0; omega
  -- where entry (p, q) of the result's block sits in the array: row 32 t + p, column q
  have hr : 32 * t.val + p.val < 512 := by
    have : t.val < 16 := by rw [← hN]; exact ht
    omega
  have hemb : ((cfg0.win 2).blk t).view.emb (ix2 p q) = ix2 (⟨32 * t.val + p.val, hr⟩ : Fin 512) q := by
    funext a; apply Fin.ext
    match a with
    | ⟨0, _⟩ => show win0_2.index t (0 : Fin 2) * 32 + 1 * p.val = 32 * t.val + p.val; omega
    | ⟨1, _⟩ => show win0_2.index t (1 : Fin 2) * 32768 + 1 * q.val = q.val; omega
  -- row p of the scores' block is row 32 t + p of the scores
  have hrow : rowOf (iblk m c 1 t) p = rowOf (V m c main_arg0) (⟨32 * t.val + p.val, hr⟩ : Fin 512) := by
    funext k
    show V m c main_arg0 (((cfg0.win 1).blk t).view.emb (ix2 p k)) = V m c main_arg0 (ix2 (⟨32 * t.val + p.val, hr⟩ : Fin 512) k)
    refine congrArg (V m c main_arg0) (funext fun a => Fin.ext ?_)
    match a with
    | ⟨0, _⟩ => show win0_1.index t (0 : Fin 2) * 32 + 1 * p.val = 32 * t.val + p.val; omega
    | ⟨1, _⟩ => show win0_1.index t (1 : Fin 2) * 32768 + 1 * k.val = k.val; omega
  rw [hemb, selectMatrix_apply, htemp, hrow]

/-- Every index of the result array lies in the block of the point that owns its row. -/
theorem covered (c : Dev nD) (i : S512x32768.Idx) :
    ∃ t : Fin cfg0.N, (cfg0.win 2).flush t = true ∧ i ∈ ((cfg0.win 2).blk t).view.set := by
  have hi0 : (i 0).val < 512 := (i 0).isLt
  have hi1 : (i 1).val < 32768 := (i 1).isLt
  have hN : grid0.N = 16 := N_0
  have hlt : (i 0).val / 32 < grid0.N := by rw [hN]; omega
  refine ⟨⟨(i 0).val / 32, hlt⟩, flush0_2 _, ?_⟩
  obtain ⟨-, -, -, -, e20, e21⟩ := idx_facts ⟨(i 0).val / 32, hlt⟩
  show i ∈ ((View.whole main_v3).slice (win0_2.rect ⟨(i 0).val / 32, hlt⟩)).set
  rw [View.set_slice_whole, Rect.mem_set_unit]
  intro a
  match a with
  | ⟨0, _⟩ =>
    show win0_2.index ⟨(i 0).val / 32, hlt⟩ (0 : Fin 2) * 32 ≤ (i 0).val
      ∧ (i 0).val < win0_2.index ⟨(i 0).val / 32, hlt⟩ (0 : Fin 2) * 32 + 32
    rw [e20]; show (i 0).val / 32 * 32 ≤ (i 0).val ∧ (i 0).val < (i 0).val / 32 * 32 + 32; omega
  | ⟨1, _⟩ =>
    show win0_2.index ⟨(i 0).val / 32, hlt⟩ (1 : Fin 2) * 32768 ≤ (i 1).val
      ∧ (i 1).val < win0_2.index ⟨(i 0).val / 32, hlt⟩ (1 : Fin 2) * 32768 + 32768
    rw [e21]; omega

/-- The temperature array the host operations leave in front of the kernel, at its one entry. -/
theorem temperature_entry (c : Dev nD) :
    V m c main_v2 (ix2 (0 : Fin 1) (0 : Fin 1)) = temperature (m ((c : Thread nD τ).loc main_arg1) ix0) := by
  have e : (V m c main_v2 : S1x1.Idx → EReal)
      = shapeCast S1x1 (minimumf (id (constant (F := Ideal) S_ .f32 0x41200000#32))
          (maximumf (id (constant (F := Ideal) S_ .f32 0x3DCCCCCD#32))
            (Host.exp (m ((c : Thread nD τ).loc main_arg1))))) shapeCasts_S_S1x1 := by
    dsimp only [V]
    simp only [hostOps0, hostOps0_1, hostOps0_2, List.flatten_cons, List.flatten_nil, List.append_nil, List.cons_append,
      List.nil_append]
    after_results
    rfl
  rw [e]
  exact (shapeCast_apply _ shapeCasts_S_S1x1 (ix2 (0 : Fin 1) (0 : Fin 1)) ix0 rfl).trans rfl

/-- The result array after the run: the selected matrix of the scores at the clipped temperature. -/
theorem final (c : Dev nD) :
    (dats m 0 c).arrAt 2 cfg0.N
      = selectMatrix (temperature (m ((c : Thread nD τ).loc main_arg1) ix0)) (m ((c : Thread nD τ).loc main_arg0)) := by
  have h := (dats m 0 c).arrAt_eq_of_cover 2
    (selectMatrix (V m c main_v2 (ix2 (0 : Fin 1) (0 : Fin 1))) (V m c main_arg0))
    (fun t _ => flushed_eq m c t) (covered c)
  rw [temperature_entry, V_main_arg0] at h
  exact h

/-- The kernel's run, read: the result array ends as the selected matrix, the arguments unchanged. -/
theorem kernel_run : θ_run defs (onTc (τ := τ) (main (F := Ideal))) ⟨m, fun _ => 0, ρ⟩ fun r => ∀ c : Dev nD,
      r.2.mem ((c : Thread nD τ).loc main_v3)
        = selectMatrix (temperature (m ((c : Thread nD τ).loc main_arg1) ix0)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Selector

end
-- ==== Proof.HostSteps.lean ====
/-
  The selector's steps as host array operations compute them on a matrix of `R` rows and 32768 columns, read row by
  row against the row specification.

  The host spells the logistic function out, `1 / (1 + exp (−z))` with the word of 1.0 broadcast from a rank-0
  constant; sums every row with a `reduce` from the zero word, keeps the sums as a column, clips, divides into 64, caps
  at 1 and broadcasts back; and builds the neighbour of a damping pass by cutting the matrix after its first `n₂`
  columns and joining the two pieces in the other order, so that entry `(p, c)` of the joined matrix is entry
  `(p, c + n₂)` of the matrix, the column counted around the end. Read at `(p, c)`, every step is the row step
  applied to row `p`.
-/
import Idealize.ShloMosaic.Lib.ValueIdx
import Idealize.ShloMosaic.Lib.IdealHost
import Idealize.ShloMosaic.Lib.Pipeline.Value
import Idealize.ShloMosaic.PureOps.Ideal.Laws
import proofs.«151350_j7705171329190_1_alg».proof.Proof.RowSpec
import proofs.«151350_j7705171329190_1_alg».proof.Proof.LibRoll

noncomputable section

namespace Cert.Selector

open Idealize.ShloMosaic Idealize.ShloMosaic.ValueIdx

variable {R : ℕ}

/-- `1.0 / (1.0 + exp (−(x / τ)))`, the temperature a rank-0 array broadcast to the matrix. -/
def hSig (tv : FVec Ideal ⟨0, ![]⟩ .f32) (x : FVec Ideal ⟨2, ![R, 32768]⟩ .f32)
    (hb0 : (⟨0, ![]⟩ : Shape).BroadcastsInDim ⟨2, ![R, 32768]⟩ ![]) : FVec Ideal ⟨2, ![R, 32768]⟩ .f32 :=
  Host.divf (broadcastInDim ⟨2, ![R, 32768]⟩ ![] hb0 (constant (F := Ideal) ⟨0, ![]⟩ .f32 0x3F800000#32))
    (addf (broadcastInDim ⟨2, ![R, 32768]⟩ ![] hb0 (constant (F := Ideal) ⟨0, ![]⟩ .f32 0x3F800000#32))
      (Host.exp (Host.negf (Host.divf x (broadcastInDim ⟨2, ![R, 32768]⟩ ![] hb0 tv)))))

/-- Every row scaled by `min (64 / max (ε, its sum), 1)`, the sums kept as a column and broadcast back. -/
def hScale (s : FVec Ideal ⟨2, ![R, 32768]⟩ .f32)
    (hredTo : (⟨2, ![R, 32768]⟩ : Shape).ReducesTo [1] ⟨1, ![R]⟩) (h0 : 0 < (⟨0, ![]⟩ : Shape).numel)
    (hb1 : (⟨1, ![R]⟩ : Shape).BroadcastsInDim ⟨2, ![R, 1]⟩ ![0])
    (hb2 : (⟨0, ![]⟩ : Shape).BroadcastsInDim ⟨2, ![R, 1]⟩ ![])
    (hb3 : (⟨2, ![R, 1]⟩ : Shape).BroadcastsInDim ⟨2, ![R, 32768]⟩ ![0, 1]) : FVec Ideal ⟨2, ![R, 32768]⟩ .f32 :=
  mulf s (broadcastInDim ⟨2, ![R, 32768]⟩ ![0, 1] hb3
    (minimumf
      (Host.divf (broadcastInDim ⟨2, ![R, 1]⟩ ![] hb2 (constant (F := Ideal) ⟨0, ![]⟩ .f32 0x42800000#32))
        (maximumf (broadcastInDim ⟨2, ![R, 1]⟩ ![] hb2 (id (constant (F := Ideal) ⟨0, ![]⟩ .f32 0x358637BD#32)))
          (broadcastInDim ⟨2, ![R, 1]⟩ ![0] hb1
            (Host.reduceAdd s (constant (F := Ideal) ⟨0, ![]⟩ .f32 0x00000000#32) hredTo h0))))
      (broadcastInDim ⟨2, ![R, 1]⟩ ![] hb2 (constant (F := Ideal) ⟨0, ![]⟩ .f32 0x3F800000#32))))

/-- One damping pass, the neighbour read through the matrix cut after `n₂` columns and rejoined the other way round. -/
def hDamp {n1 n2 : ℕ} (y : FVec Ideal ⟨2, ![R, 32768]⟩ .f32)
    (hb0 : (⟨0, ![]⟩ : Shape).BroadcastsInDim ⟨2, ![R, 32768]⟩ ![])
    (hs1 : (⟨2, ![R, 32768]⟩ : Shape).Slices ![0, n2] ⟨2, ![R, n1]⟩)
    (hs2 : (⟨2, ![R, 32768]⟩ : Shape).Slices ![0, 0] ⟨2, ![R, n2]⟩)
    (hcat : Shape.Concatenates [⟨2, ![R, n1]⟩, ⟨2, ![R, n2]⟩] ⟨2, ![R, 32768]⟩ 1) :
    FVec Ideal ⟨2, ![R, 32768]⟩ .f32 :=
  mulf y (minimumf
    (Host.divf (broadcastInDim ⟨2, ![R, 32768]⟩ ![] hb0 (constant (F := Ideal) ⟨0, ![]⟩ .f32 0x40000000#32))
      (addf (addf (broadcastInDim ⟨2, ![R, 32768]⟩ ![] hb0 (constant (F := Ideal) ⟨0, ![]⟩ .f32 0x3F800000#32)) y)
        (concatenate ⟨2, ![R, 32768]⟩ 1
          [⟨⟨2, ![R, n1]⟩, extractStridedSlice ⟨2, ![R, n1]⟩ ![0, n2] y hs1⟩,
           ⟨⟨2, ![R, n2]⟩, extractStridedSlice ⟨2, ![R, n2]⟩ ![0, 0] y hs2⟩] hcat)))
    (broadcastInDim ⟨2, ![R, 32768]⟩ ![] hb0 (constant (F := Ideal) ⟨0, ![]⟩ .f32 0x3F800000#32)))

/-- Row `p` of the host's logistic step is the row step of row `p`, at the temperature the rank-0 array holds. -/
theorem rowOf_hSig (tv : FVec Ideal ⟨0, ![]⟩ .f32) (x : FVec Ideal ⟨2, ![R, 32768]⟩ .f32)
    (hb0 : (⟨0, ![]⟩ : Shape).BroadcastsInDim ⟨2, ![R, 32768]⟩ ![]) (p : Fin R) :
    rowOf (hSig tv x hb0) p = sigRow (tv ix0) (rowOf x p) := by
  funext c
  show Ideal.div (broadcastInDim ⟨2, ![R, 32768]⟩ ![] hb0 (constant (F := Ideal) ⟨0, ![]⟩ .f32 0x3F800000#32) (ix2 p c))
      (broadcastInDim ⟨2, ![R, 32768]⟩ ![] hb0 (constant (F := Ideal) ⟨0, ![]⟩ .f32 0x3F800000#32) (ix2 p c)
        + Ideal.exp (-(Ideal.div (x (ix2 p c)) (broadcastInDim ⟨2, ![R, 32768]⟩ ![] hb0 tv (ix2 p c))))) = _
  rw [broadcastInDim_scalar_apply, broadcastInDim_scalar_apply]
  exact logistic_spelled _

/-- The host's sum of every row from the zero word, read at row `p`: the sum over the row. -/
theorem hostRowSum_apply (s : FVec Ideal ⟨2, ![R, 32768]⟩ .f32)
    (hredTo : (⟨2, ![R, 32768]⟩ : Shape).ReducesTo [1] ⟨1, ![R]⟩) (h0 : 0 < (⟨0, ![]⟩ : Shape).numel)
    (hred : (⟨2, ![R, 32768]⟩ : Shape).Reduces [1] ⟨1, ![R]⟩) (p : Fin R) :
    Host.reduceAdd s (constant (F := Ideal) ⟨0, ![]⟩ .f32 0x00000000#32) hredTo h0 (ix1 p)
      = ∑ k : Fin 32768, s (ix2 p k) := by
  refine (hostReduceAdd_apply s _ hredTo h0 (ix1 p)).trans ?_
  refine (Ideal.hostReduceAdd_single hredTo hred s _ (ix1 p)).trans ?_
  show Ideal.ofBits .f32 0x00000000#32 + _ = _
  rw [Ideal.ofBits_zero_f32, zero_add]
  refine Finset.sum_congr rfl fun k _ => congrArg s (funext fun a => Fin.ext ?_)
  match a with
  | ⟨0, _⟩ => rfl
  | ⟨1, _⟩ => rfl

/-- A vector of `R` entries kept as a column reads, at `(p, 0)`, entry `p`. -/
theorem keptColumn_apply {α : Type} (v : (⟨1, ![R]⟩ : Shape).Idx → α)
    (hb1 : (⟨1, ![R]⟩ : Shape).BroadcastsInDim ⟨2, ![R, 1]⟩ ![0]) (p : Fin R) :
    broadcastInDim ⟨2, ![R, 1]⟩ ![0] hb1 v (ix2 p (0 : Fin 1)) = v (ix1 p) :=
  broadcastInDim_apply ![0] hb1 v (ix2 p (0 : Fin 1)) (ix1 p) (fun a => by
    have hp := p.isLt
    match a with
    | ⟨0, _⟩ =>
      show p.val = if R = 1 then 0 else p.val
      split
      · omega
      · rfl)

/-- A column broadcast along the rows reads, at `(p, c)`, the column at `(p, 0)`. -/
theorem columnAlongRows_apply {α : Type} (v : (⟨2, ![R, 1]⟩ : Shape).Idx → α)
    (hb3 : (⟨2, ![R, 1]⟩ : Shape).BroadcastsInDim ⟨2, ![R, 32768]⟩ ![0, 1]) (p : Fin R) (c : Fin 32768) :
    broadcastInDim ⟨2, ![R, 32768]⟩ ![0, 1] hb3 v (ix2 p c) = v (ix2 p (0 : Fin 1)) :=
  broadcastInDim_apply ![0, 1] hb3 v (ix2 p c) (ix2 p (0 : Fin 1)) (fun a => by
    have hp := p.isLt
    match a with
    | ⟨0, _⟩ =>
      show p.val = if R = 1 then 0 else p.val
      split
      · omega
      · rfl
    | ⟨1, _⟩ => rfl)

/-- Row `p` of the host's scaled matrix is the scaled row `p`. -/
theorem rowOf_hScale (s : FVec Ideal ⟨2, ![R, 32768]⟩ .f32)
    (hredTo : (⟨2, ![R, 32768]⟩ : Shape).ReducesTo [1] ⟨1, ![R]⟩) (h0 : 0 < (⟨0, ![]⟩ : Shape).numel)
    (hb1 : (⟨1, ![R]⟩ : Shape).BroadcastsInDim ⟨2, ![R, 1]⟩ ![0])
    (hb2 : (⟨0, ![]⟩ : Shape).BroadcastsInDim ⟨2, ![R, 1]⟩ ![])
    (hb3 : (⟨2, ![R, 1]⟩ : Shape).BroadcastsInDim ⟨2, ![R, 32768]⟩ ![0, 1])
    (hred : (⟨2, ![R, 32768]⟩ : Shape).Reduces [1] ⟨1, ![R]⟩) (p : Fin R) :
    rowOf (hScale s hredTo h0 hb1 hb2 hb3) p = scaleRow (rowOf s p) := by
  funext c
  unfold rowOf hScale scaleRow budget
  refine congrArg (s (ix2 p c) * ·) ?_
  refine (columnAlongRows_apply _ hb3 p c).trans ?_
  show min (Ideal.div
      (broadcastInDim ⟨2, ![R, 1]⟩ ![] hb2 (constant (F := Ideal) ⟨0, ![]⟩ .f32 0x42800000#32) (ix2 p (0 : Fin 1)))
      (max (broadcastInDim ⟨2, ![R, 1]⟩ ![] hb2 (id (constant (F := Ideal) ⟨0, ![]⟩ .f32 0x358637BD#32)) (ix2 p (0 : Fin 1)))
        (broadcastInDim ⟨2, ![R, 1]⟩ ![0] hb1
          (Host.reduceAdd s (constant (F := Ideal) ⟨0, ![]⟩ .f32 0x00000000#32) hredTo h0) (ix2 p (0 : Fin 1)))))
      (broadcastInDim ⟨2, ![R, 1]⟩ ![] hb2 (constant (F := Ideal) ⟨0, ![]⟩ .f32 0x3F800000#32) (ix2 p (0 : Fin 1))) = _
  rw [keptColumn_apply, hostRowSum_apply s hredTo h0 hred p,
    broadcastInDim_scalar_apply, broadcastInDim_scalar_apply, broadcastInDim_scalar_apply]
  rfl

/-- The matrix cut after `n₂` columns and rejoined the other way round, at `(p, c)`: the matrix at `(p, c + n₂)`,
    the column counted around the end. -/
theorem rejoined_apply {α : Type} {n1 n2 : ℕ} (hn : n1 + n2 = 32768) (y : (⟨2, ![R, 32768]⟩ : Shape).Idx → α)
    (hs1 : (⟨2, ![R, 32768]⟩ : Shape).Slices ![0, n2] ⟨2, ![R, n1]⟩)
    (hs2 : (⟨2, ![R, 32768]⟩ : Shape).Slices ![0, 0] ⟨2, ![R, n2]⟩)
    (hcat : Shape.Concatenates [⟨2, ![R, n1]⟩, ⟨2, ![R, n2]⟩] ⟨2, ![R, 32768]⟩ 1) (p : Fin R) (c : Fin 32768) :
    concatenate ⟨2, ![R, 32768]⟩ 1
        [⟨⟨2, ![R, n1]⟩, extractStridedSlice ⟨2, ![R, n1]⟩ ![0, n2] y hs1⟩,
         ⟨⟨2, ![R, n2]⟩, extractStridedSlice ⟨2, ![R, n2]⟩ ![0, 0] y hs2⟩] hcat (ix2 p c)
      = y (ix2 p (shiftCol n2 c)) :=
  LibRoll.hostRoll_apply hn y hs1 hs2 hcat p c

/-- Row `p` of the host's damping pass cut after `n₂` columns is the row's damping pass at distance `n₂`. -/
theorem rowOf_hDamp {n1 n2 : ℕ} (hn : n1 + n2 = 32768) (y : FVec Ideal ⟨2, ![R, 32768]⟩ .f32)
    (hb0 : (⟨0, ![]⟩ : Shape).BroadcastsInDim ⟨2, ![R, 32768]⟩ ![])
    (hs1 : (⟨2, ![R, 32768]⟩ : Shape).Slices ![0, n2] ⟨2, ![R, n1]⟩)
    (hs2 : (⟨2, ![R, 32768]⟩ : Shape).Slices ![0, 0] ⟨2, ![R, n2]⟩)
    (hcat : Shape.Concatenates [⟨2, ![R, n1]⟩, ⟨2, ![R, n2]⟩] ⟨2, ![R, 32768]⟩ 1) (p : Fin R) :
    rowOf (hDamp y hb0 hs1 hs2 hcat) p = dampRow n2 (rowOf y p) := by
  funext c
  show y (ix2 p c) * min (Ideal.div
      (broadcastInDim ⟨2, ![R, 32768]⟩ ![] hb0 (constant (F := Ideal) ⟨0, ![]⟩ .f32 0x40000000#32) (ix2 p c))
      ((broadcastInDim ⟨2, ![R, 32768]⟩ ![] hb0 (constant (F := Ideal) ⟨0, ![]⟩ .f32 0x3F800000#32) (ix2 p c) + y (ix2 p c))
        + concatenate ⟨2, ![R, 32768]⟩ 1
          [⟨⟨2, ![R, n1]⟩, extractStridedSlice ⟨2, ![R, n1]⟩ ![0, n2] y hs1⟩,
           ⟨⟨2, ![R, n2]⟩, extractStridedSlice ⟨2, ![R, n2]⟩ ![0, 0] y hs2⟩] hcat (ix2 p c)))
      (broadcastInDim ⟨2, ![R, 32768]⟩ ![] hb0 (constant (F := Ideal) ⟨0, ![]⟩ .f32 0x3F800000#32) (ix2 p c)) = _
  rw [rejoined_apply hn y hs1 hs2 hcat p c, broadcastInDim_scalar_apply, broadcastInDim_scalar_apply]
  rfl

end Cert.Selector

end
-- ==== Proof.LibScatterSet.lean ====
/-
  A host scatter whose body returns the update (an array's `.at[…].set`), read at an index.

  `Host.scatter` folds over the update indices in row-major order; each update index `j` that lands inside the
  operand, at the operand index `g j`, overwrites the element there. When EVERY update index lands inside, at
  `g j`, the result is a left fold of point overwrites. Such a fold, read at a place no update writes, is the
  operand there; read at a place `g j` that only updates of equal value write, it is that value — so when `g` is
  injective the result at `g j` is the update at `j`, whatever the order of the fold.
  Imports only the Idealize library.
-/
import Idealize.ShloMosaic.PureOps.ShapeOps
import Idealize.ShloMosaic.Lib.ValueIdx

noncomputable section

namespace Cert.LibScatterSet

open Idealize.ShloMosaic

variable {ι κ α : Type} [DecidableEq κ]

/-- A left fold of point overwrites (`n` writes `v n` at place `g n`) keeps the start value at a place nobody writes. -/
theorem foldl_set_miss (g : ι → κ) (v : ι → α) (l : List ι) (x : κ → α) (i' : κ) (h : ∀ n ∈ l, g n ≠ i') :
    (l.foldl (fun r n => fun i => if i = g n then v n else r i) x) i' = x i' := by
  induction l generalizing x with
  | nil => rfl
  | cons a l ih =>
    rw [List.foldl_cons, ih _ (fun n hn => h n (List.mem_cons_of_mem _ hn))]
    exact if_neg (fun e => h a List.mem_cons_self e.symm)

/-- … and holds `v n0` at `g n0` when every writer of that place writes the same value. -/
theorem foldl_set_hit (g : ι → κ) (v : ι → α) (l : List ι) (x : κ → α) (n0 : ι) (hn0 : n0 ∈ l)
    (huniq : ∀ n ∈ l, g n = g n0 → v n = v n0) :
    (l.foldl (fun r n => fun i => if i = g n then v n else r i) x) (g n0) = v n0 := by
  induction l using List.reverseRecOn with
  | nil => cases hn0
  | append_singleton l a ih =>
    rw [List.foldl_append, List.foldl_cons, List.foldl_nil]
    show (if g n0 = g a then v a else (l.foldl _ x) (g n0)) = v n0
    by_cases e : g n0 = g a
    · rw [if_pos e]; exact huniq a (List.mem_append_right _ List.mem_cons_self) e.symm
    · rw [if_neg e]
      have hmem : n0 ∈ l := by
        rcases List.mem_append.mp hn0 with h | h
        · exact h
        · rw [List.mem_singleton] at h; subst h; exact absurd rfl e
      exact ih hmem (fun n hn => huniq n (List.mem_append_left _ hn))

variable {s si u : Shape} {w : Nat}

/-- When every update index lands inside the operand, at `g j`, the scatter with the set body is the fold of
    point overwrites over the update indices in row-major order. -/
theorem scatter_set_eq_foldl (d : ScatterDims s si u) (x : s.Idx → α) (idx : IVec si w) (upd : u.Idx → α)
    (g : u.Idx → s.Idx) (hg : ∀ j, d.resultIdx? j idx = some (g j)) :
    Host.scatter d (fun _ b => b) x idx upd
      = (List.finRange u.numel).foldl (fun r n => fun i' => if i' = g (u.rowMajor.symm n) then upd (u.rowMajor.symm n) else r i') x := by
  unfold Host.scatter
  refine congrArg (fun st => (List.finRange u.numel).foldl st x) (funext fun r => funext fun n => ?_)
  rw [hg]

/-- At a place no update lands, the operand's element. -/
theorem scatter_set_miss (d : ScatterDims s si u) (x : s.Idx → α) (idx : IVec si w) (upd : u.Idx → α)
    (g : u.Idx → s.Idx) (hg : ∀ j, d.resultIdx? j idx = some (g j)) (i' : s.Idx) (h : ∀ j, g j ≠ i') :
    Host.scatter d (fun _ b => b) x idx upd i' = x i' := by
  rw [scatter_set_eq_foldl d x idx upd g hg]
  exact foldl_set_miss (fun n => g (u.rowMajor.symm n)) (fun n => upd (u.rowMajor.symm n)) _ x i' (fun n _ => h _)

/-- At the place update index `j` lands, the update at `j`, when no two update indices land at one place. -/
theorem scatter_set_hit (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  rw [scatter_set_eq_foldl d x idx upd g hg]
  have key := foldl_set_hit (fun n => g (u.rowMajor.symm n)) (fun n => upd (u.rowMajor.symm n)) (List.finRange u.numel) x
    (u.rowMajor j) (List.mem_finRange _) (fun n _ e => by
      have := hinj e
      exact congrArg upd this)
  simp only [Equiv.symm_apply_apply] at key
  exact key

end Cert.LibScatterSet

end
-- ==== Proof.RefValue.lean ====
/-
  What the reference computes, as one array of the two arguments, and that array read at `(r, c)`.

  The reference is the selector's steps on the whole 512 × 32768 matrix: the temperature `min (10, max (0.1, exp t))`
  as a rank-0 array; the logistic step; the rows scaled toward 64; four damping passes, the neighbour at distance
  `d` read through the matrix cut after `d` columns and rejoined the other way round; and last a scatter that writes
  a zero at `(r, 0)` for every row `r` — its one index is 0 along the columns, its 512 updates are zeros, update `r`
  lands at `(r, 0)`, no two at one place. So at `(r, c)` the result is the zero word when `c = 0` and otherwise the
  fourth damping pass of row `r`: the selected row of row `r` of the scores.
-/
import proofs.«151350_j7705171329190_1_alg».proof.ReferenceIdeal
import proofs.«151350_j7705171329190_1_alg».proof.Proof.Gen.ReferenceIdeal
import proofs.«151350_j7705171329190_1_alg».proof.Proof.HostSteps
import proofs.«151350_j7705171329190_1_alg».proof.Proof.LibScatterSet

noncomputable section

namespace Cert.Selector

open Idealize.ShloMosaic Idealize.ShloMosaic.ValueIdx Cert.ReferenceIdeal Cert.ReferenceIdeal.Gen

/-- The temperature as the rank-0 array the host computes: `min (10, max (0.1, exp t))`. -/
def refTemp (x1 : FVec Ideal S_ .f32) : FVec Ideal S_ .f32 :=
  minimumf (id (constant (F := Ideal) S_ .f32 0x41200000#32))
    (maximumf (id (constant (F := Ideal) S_ .f32 0x3DCCCCCD#32)) (Host.exp x1))

/-- The logistic matrix with every row scaled toward a total of 64. -/
def refScaled (x0 : FVec Ideal S512x32768 .f32) (x1 : FVec Ideal S_ .f32) : FVec Ideal S512x32768 .f32 :=
  hScale (hSig (refTemp x1) x0 bcast_S_S512x32768)
    reducesTo_S512x32768_S512_d1 h_S_ bcast_S512_S512x1_0 bcast_S_S512x1 bcast_S512x1_S512x32768_0_1

/-- The damping pass at distance 1: the matrix cut after its first column. -/
def refPass1 (y : FVec Ideal S512x32768 .f32) : FVec Ideal S512x32768 .f32 :=
  hDamp y bcast_S_S512x32768 slices_S512x32768_S512x32767_0_1 slices_S512x32768_S512x1_0_0
    concatenates_S512x32767_S512x1_S512x32768_d1

/-- The damping pass at distance 2. -/
def refPass2 (y : FVec Ideal S512x32768 .f32) : FVec Ideal S512x32768 .f32 :=
  hDamp y bcast_S_S512x32768 slices_S512x32768_S512x32766_0_2 slices_S512x32768_S512x2_0_0
    concatenates_S512x32766_S512x2_S512x32768_d1

/-- The damping pass at distance 3. -/
def refPass3 (y : FVec Ideal S512x32768 .f32) : FVec Ideal S512x32768 .f32 :=
  hDamp y bcast_S_S512x32768 slices_S512x32768_S512x32765_0_3 slices_S512x32768_S512x3_0_0
    concatenates_S512x32765_S512x3_S512x32768_d1

/-- The damping pass at distance 4. -/
def refPass4 (y : FVec Ideal S512x32768 .f32) : FVec Ideal S512x32768 .f32 :=
  hDamp y bcast_S_S512x32768 slices_S512x32768_S512x32764_0_4 slices_S512x32768_S512x4_0_0
    concatenates_S512x32764_S512x4_S512x32768_d1

/-- The four damping passes of the scaled logistic matrix. -/
def refDamped (x0 : FVec Ideal S512x32768 .f32) (x1 : FVec Ideal S_ .f32) : FVec Ideal S512x32768 .f32 :=
  refPass4 (refPass3 (refPass2 (refPass1 (refScaled x0 x1))))

/-- The scatter's one index: 0. -/
def refIndex : IVec S1 32 := broadcastInDim S1 ![] bcast_S_S1 (constantI S_ 32 0#32)

/-- The scatter's updates: 512 zeros. -/
def refZeros : FVec Ideal S512 .f32 := broadcastInDim S512 ![] bcast_S_S512 (constant (F := Ideal) S_ .f32 0x00000000#32)

/-- The zeros written down the first column of a matrix. -/
def refClear (y : FVec Ideal S512x32768 .f32) : FVec Ideal S512x32768 .f32 :=
  Host.scatter scatter_S512x32768_S1_S512_0_1_1_0 (fun _ b => b) y refIndex refZeros

/-- The reference's result: the damped matrix with the zeros written down its first column. -/
def refSelect (x0 : FVec Ideal S512x32768 .f32) (x1 : FVec Ideal S_ .f32) : FVec Ideal S512x32768 .f32 :=
  refClear (refDamped x0 x1)

/-- Where update `j` lands: row `j`, column 0. -/
def landing (j : S512.Idx) : S512x32768.Idx := ix2 (⟨(j 0).val, (j 0).isLt⟩ : Fin 512) (0 : Fin 32768)

theorem landing_injective : Function.Injective landing := by
  intro j j' e
  funext a
  match a with
  | ⟨0, _⟩ =>
    have := congrArg (fun i : S512x32768.Idx => (i 0).val) e
    exact Fin.ext this

/-- Every window starts at 0 on both axes: the one index is the zero word, and axis 0 is not indexed. -/
theorem start_eq_zero (j : S512.Idx) (a : Fin S512x32768.rank) :
    scatter_S512x32768_S1_S512_0_1_1_0.start j refIndex a = 0 := by
  unfold ScatterDims.start
  split
  · show (refIndex _).toInt = 0
    unfold refIndex
    rw [broadcastInDim_scalar_apply]
    rfl
  · rfl

/-- Update `j` lands inside the matrix, at `(j, 0)`. -/
theorem lands (j : S512.Idx) :
    scatter_S512x32768_S1_S512_0_1_1_0.resultIdx? j refIndex = some (landing j) := by
  have hw0 : ∀ h : 0 < S512x32768.rank, scatter_S512x32768_S1_S512_0_1_1_0.window j ⟨0, h⟩ = (j 0).val := fun _ => rfl
  have hw1 : ∀ h : 1 < S512x32768.rank, scatter_S512x32768_S1_S512_0_1_1_0.window j ⟨1, h⟩ = 0 := fun _ => rfl
  have hj : (j 0).val < 512 := (j 0).isLt
  unfold ScatterDims.resultIdx?
  rw [dif_pos (fun a => by
    rw [start_eq_zero]
    match a with
    | ⟨0, _⟩ => rw [hw0]; constructor <;> [omega; (show ((0 : Int) + ((j 0).val : Int)) < 512; omega)]
    | ⟨1, _⟩ => rw [hw1]; constructor <;> [omega; (show ((0 : Int) + ((0 : Nat) : Int)) < 32768; omega)])]
  refine congrArg some (funext fun a => Fin.ext ?_)
  show ((scatter_S512x32768_S1_S512_0_1_1_0.start j refIndex a
      + (scatter_S512x32768_S1_S512_0_1_1_0.window j a : Int))).toNat = (landing j a).val
  rw [start_eq_zero]
  match a with
  | ⟨0, _⟩ => rw [hw0]; show ((0 : Int) + ((j 0).val : Int)).toNat = (j 0).val; omega
  | ⟨1, _⟩ => rw [hw1]; rfl

/-- The reference's result at `(r, c)`: the selected row of row `r` of the scores, at the clipped temperature. -/
theorem refSelect_apply (x0 : FVec Ideal S512x32768 .f32) (x1 : FVec Ideal S_ .f32) (r : Fin 512) (c : Fin 32768) :
    refSelect x0 x1 (ix2 r c) = selectRow (temperature (x1 ix0)) (rowOf x0 r) c := by
  unfold refSelect refClear selectRow
  by_cases h0 : c.val = 0
  · rw [if_pos h0]
    have hc : c = (0 : Fin 32768) := Fin.ext h0
    subst hc
    have key := LibScatterSet.scatter_set_hit scatter_S512x32768_S1_S512_0_1_1_0 (refDamped x0 x1) refIndex refZeros
      landing lands landing_injective (ix1 r)
    refine (show ix2 r (0 : Fin 32768) = landing (ix1 r) from rfl) ▸ key.trans ?_
    unfold refZeros
    rw [broadcastInDim_scalar_apply]
    rfl
  · rw [if_neg h0]
    refine (LibScatterSet.scatter_set_miss scatter_S512x32768_S1_S512_0_1_1_0 (refDamped x0 x1) refIndex refZeros
      landing lands (ix2 r c) (fun j e => h0 ?_)).trans ?_
    · have := congrArg (fun i : S512x32768.Idx => (i 1).val) e
      exact this.symm
    · show rowOf (refDamped x0 x1) r c = _
      unfold refDamped refPass4 refPass3 refPass2 refPass1 refScaled
      rw [rowOf_hDamp (by decide), rowOf_hDamp (by decide), rowOf_hDamp (by decide), rowOf_hDamp (by decide),
        rowOf_hScale _ _ _ _ _ _ (by decide), rowOf_hSig]
      rfl

/-- The reference's result is the selected matrix of the scores at the clipped temperature. -/
theorem refSelect_eq (x0 : FVec Ideal S512x32768 .f32) (x1 : FVec Ideal S_ .f32) :
    refSelect x0 x1 = selectMatrix (temperature (x1 ix0)) x0 := by
  funext i
  obtain ⟨r, c, rfl⟩ : ∃ (r : Fin 512) (c : Fin 32768), i = ix2 r c := ⟨i 0, i 1, eq_ix2 i⟩
  rw [refSelect_apply, selectMatrix_apply]

end Cert.Selector

end
-- ==== Proof.RefRun.lean ====
/-
  The reference's run, read back: its 93 host operations leave, in the result's buffer, the selected matrix's
  host spelling `refSelect` of the two argument arrays, and leave the arguments as they were.

  The operations are read in six stretches, each from ANY contents of the buffers in front of it: the first 32 end
  with the scaled logistic matrix of the two arguments; each of the next four stretches of 14 turns the matrix the
  previous stretch ended with into its damping pass at distance 1, 2, 3, 4; the last 5 write the zeros down the first
  column. Every stretch reads only what the stretch before it wrote (the first reads the arguments), so the whole is
  the composition of the six. Reading a stretch at a time keeps every comparison to one step of the selector: each
  damping pass mentions its input four times, and the one expression of all four passes, written out, is 4⁴ times
  the size of its input.
-/
import proofs.«151350_j7705171329190_1_alg».proof.Proof.Gen.ReferenceIdeal
import proofs.«151350_j7705171329190_1_alg».proof.Proof.RefValue
import Idealize.ShloMosaic.Lib.StableHlo.Run

noncomputable section

namespace Cert.Selector.RefRun

open Cert.ReferenceIdeal Cert.ReferenceIdeal.Gen Idealize.ShloMosaic Idealize.ShloMosaic.TcCoe Idealize.SL.Sem Idealize.ShloMosaic.StableHlo
open Cert.Selector

variable {F : FTy → Type} [FloatOps F]

/-- @main's 93 operations, in order (a called function's operations stand in its call's place). -/
abbrev ops : List (HloOp τ sig (Elt F)) :=
  [ unary main_arg1 main_v0 (Host.exp : (⟨S_, .f32⟩ : BufTy).Contents (Elt F) → (⟨S_, .f32⟩ : BufTy).Contents (Elt F)),
    nullary main_cst (constant S_ .f32 0x3DCCCCCD#32),
    nullary main_cst_0 (constant S_ .f32 0x41200000#32),
    TRef.unary (TRef.of (T := ⟨S_, .f32⟩) main_cst) (TRef.of (T := ⟨S_, .f32⟩) main_call0_v0) id,
    TRef.binary (TRef.of (T := ⟨S_, .f32⟩) main_call0_v0) (TRef.of (T := ⟨S_, .f32⟩) main_v0) (TRef.of (T := ⟨S_, .f32⟩) main_call0_v1) maximumf,
    TRef.unary (TRef.of (T := ⟨S_, .f32⟩) main_cst_0) (TRef.of (T := ⟨S_, .f32⟩) main_call0_v2) id,
    TRef.binary (TRef.of (T := ⟨S_, .f32⟩) main_call0_v2) (TRef.of (T := ⟨S_, .f32⟩) main_call0_v1) (TRef.of (T := ⟨S_, .f32⟩) main_v1) minimumf,
    unary main_v1 main_v2 (broadcastInDim S512x32768 ![] bcast_S_S512x32768 : (⟨S_, .f32⟩ : BufTy).Contents (Elt F) → (⟨S512x32768, .f32⟩ : BufTy).Contents (Elt F)),
    binary main_arg0 main_v2 main_v3 (Host.divf : (⟨S512x32768, .f32⟩ : BufTy).Contents (Elt F) → (⟨S512x32768, .f32⟩ : BufTy).Contents (Elt F) → (⟨S512x32768, .f32⟩ : BufTy).Contents (Elt F)),
    unary main_v3 main_v4 (Host.negf : (⟨S512x32768, .f32⟩ : BufTy).Contents (Elt F) → (⟨S512x32768, .f32⟩ : BufTy).Contents (Elt F)),
    unary main_v4 main_v5 (Host.exp : (⟨S512x32768, .f32⟩ : BufTy).Contents (Elt F) → (⟨S512x32768, .f32⟩ : BufTy).Contents (Elt F)),
    nullary main_cst_1 (constant S_ .f32 0x3F800000#32),
    unary main_cst_1 main_v6 (broadcastInDim S512x32768 ![] bcast_S_S512x32768 : (⟨S_, .f32⟩ : BufTy).Contents (Elt F) → (⟨S512x32768, .f32⟩ : BufTy).Contents (Elt F)),
    binary main_v6 main_v5 main_v7 (addf : (⟨S512x32768, .f32⟩ : BufTy).Contents (Elt F) → (⟨S512x32768, .f32⟩ : BufTy).Contents (Elt F) → (⟨S512x32768, .f32⟩ : BufTy).Contents (Elt F)),
    nullary main_cst_2 (constant S_ .f32 0x3F800000#32),
    unary main_cst_2 main_v8 (broadcastInDim S512x32768 ![] bcast_S_S512x32768 : (⟨S_, .f32⟩ : BufTy).Contents (Elt F) → (⟨S512x32768, .f32⟩ : BufTy).Contents (Elt F)),
    binary main_v8 main_v7 main_v9 (Host.divf : (⟨S512x32768, .f32⟩ : BufTy).Contents (Elt F) → (⟨S512x32768, .f32⟩ : BufTy).Contents (Elt F) → (⟨S512x32768, .f32⟩ : BufTy).Contents (Elt F)),
    nullary main_cst_3 (constant S_ .f32 0x00000000#32),
    binary main_v9 main_cst_3 main_v10 ((fun x v => Host.reduceAdd x v reducesTo_S512x32768_S512_d1 h_S_) : (⟨S512x32768, .f32⟩ : BufTy).Contents (Elt F) → (⟨S_, .f32⟩ : BufTy).Contents (Elt F) → (⟨S512, .f32⟩ : BufTy).Contents (Elt F)),
    unary main_v10 main_v11 (broadcastInDim S512x1 ![0] bcast_S512_S512x1_0 : (⟨S512, .f32⟩ : BufTy).Contents (Elt F) → (⟨S512x1, .f32⟩ : BufTy).Contents (Elt F)),
    nullary main_cst_4 (constant S_ .f32 0x358637BD#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S512x1, .f32⟩) main_call1_v1) (broadcastInDim S512x1 ![] bcast_S_S512x1),
    TRef.binary (TRef.of (T := ⟨S512x1, .f32⟩) main_call1_v1) (TRef.of (T := ⟨S512x1, .f32⟩) main_v11) (TRef.of (T := ⟨S512x1, .f32⟩) main_v12) maximumf,
    nullary main_cst_5 (constant S_ .f32 0x42800000#32),
    unary main_cst_5 main_v13 (broadcastInDim S512x1 ![] bcast_S_S512x1 : (⟨S_, .f32⟩ : BufTy).Contents (Elt F) → (⟨S512x1, .f32⟩ : BufTy).Contents (Elt F)),
    binary main_v13 main_v12 main_v14 (Host.divf : (⟨S512x1, .f32⟩ : BufTy).Contents (Elt F) → (⟨S512x1, .f32⟩ : BufTy).Contents (Elt F) → (⟨S512x1, .f32⟩ : BufTy).Contents (Elt F)),
    nullary main_cst_6 (constant S_ .f32 0x3F800000#32),
    unary main_cst_6 main_v15 (broadcastInDim S512x1 ![] bcast_S_S512x1 : (⟨S_, .f32⟩ : BufTy).Contents (Elt F) → (⟨S512x1, .f32⟩ : BufTy).Contents (Elt F)),
    binary main_v14 main_v15 main_v16 (minimumf : (⟨S512x1, .f32⟩ : BufTy).Contents (Elt F) → (⟨S512x1, .f32⟩ : BufTy).Contents (Elt F) → (⟨S512x1, .f32⟩ : BufTy).Contents (Elt F)),
    unary main_v16 main_v17 (broadcastInDim S512x32768 ![0, 1] bcast_S512x1_S512x32768_0_1 : (⟨S512x1, .f32⟩ : BufTy).Contents (Elt F) → (⟨S512x32768, .f32⟩ : BufTy).Contents (Elt F)),
    binary main_v9 main_v17 main_v18 (mulf : (⟨S512x32768, .f32⟩ : BufTy).Contents (Elt F) → (⟨S512x32768, .f32⟩ : BufTy).Contents (Elt F) → (⟨S512x32768, .f32⟩ : BufTy).Contents (Elt F)),
    TRef.unary (TRef.of (T := ⟨S512x32768, .f32⟩) main_v18) (TRef.of (T := ⟨S512x32767, .f32⟩) main_call2_v0) (extractStridedSlice S512x32767 ![0, 1] · slices_S512x32768_S512x32767_0_1),
    TRef.unary (TRef.of (T := ⟨S512x32768, .f32⟩) main_v18) (TRef.of (T := ⟨S512x1, .f32⟩) main_call2_v1) (extractStridedSlice S512x1 ![0, 0] · slices_S512x32768_S512x1_0_0),
    TRef.binary (TRef.of (T := ⟨S512x32767, .f32⟩) main_call2_v0) (TRef.of (T := ⟨S512x1, .f32⟩) main_call2_v1) (TRef.of (T := ⟨S512x32768, .f32⟩) main_v19) (fun a b => concatenate S512x32768 1 [⟨S512x32767, a⟩, ⟨S512x1, b⟩] concatenates_S512x32767_S512x1_S512x32768_d1),
    nullary main_cst_7 (constant S_ .f32 0x3F800000#32),
    unary main_cst_7 main_v20 (broadcastInDim S512x32768 ![] bcast_S_S512x32768 : (⟨S_, .f32⟩ : BufTy).Contents (Elt F) → (⟨S512x32768, .f32⟩ : BufTy).Contents (Elt F)),
    binary main_v20 main_v18 main_v21 (addf : (⟨S512x32768, .f32⟩ : BufTy).Contents (Elt F) → (⟨S512x32768, .f32⟩ : BufTy).Contents (Elt F) → (⟨S512x32768, .f32⟩ : BufTy).Contents (Elt F)),
    binary main_v21 main_v19 main_v22 (addf : (⟨S512x32768, .f32⟩ : BufTy).Contents (Elt F) → (⟨S512x32768, .f32⟩ : BufTy).Contents (Elt F) → (⟨S512x32768, .f32⟩ : BufTy).Contents (Elt F)),
    nullary main_cst_8 (constant S_ .f32 0x40000000#32),
    unary main_cst_8 main_v23 (broadcastInDim S512x32768 ![] bcast_S_S512x32768 : (⟨S_, .f32⟩ : BufTy).Contents (Elt F) → (⟨S512x32768, .f32⟩ : BufTy).Contents (Elt F)),
    binary main_v23 main_v22 main_v24 (Host.divf : (⟨S512x32768, .f32⟩ : BufTy).Contents (Elt F) → (⟨S512x32768, .f32⟩ : BufTy).Contents (Elt F) → (⟨S512x32768, .f32⟩ : BufTy).Contents (Elt F)),
    nullary main_cst_9 (constant S_ .f32 0x3F800000#32),
    unary main_cst_9 main_v25 (broadcastInDim S512x32768 ![] bcast_S_S512x32768 : (⟨S_, .f32⟩ : BufTy).Contents (Elt F) → (⟨S512x32768, .f32⟩ : BufTy).Contents (Elt F)),
    binary main_v24 main_v25 main_v26 (minimumf : (⟨S512x32768, .f32⟩ : BufTy).Contents (Elt F) → (⟨S512x32768, .f32⟩ : BufTy).Contents (Elt F) → (⟨S512x32768, .f32⟩ : BufTy).Contents (Elt F)),
    binary main_v18 main_v26 main_v27 (mulf : (⟨S512x32768, .f32⟩ : BufTy).Contents (Elt F) → (⟨S512x32768, .f32⟩ : BufTy).Contents (Elt F) → (⟨S512x32768, .f32⟩ : BufTy).Contents (Elt F)),
    TRef.unary (TRef.of (T := ⟨S512x32768, .f32⟩) main_v27) (TRef.of (T := ⟨S512x32766, .f32⟩) main_call3_v0) (extractStridedSlice S512x32766 ![0, 2] · slices_S512x32768_S512x32766_0_2),
    TRef.unary (TRef.of (T := ⟨S512x32768, .f32⟩) main_v27) (TRef.of (T := ⟨S512x2, .f32⟩) main_call3_v1) (extractStridedSlice S512x2 ![0, 0] · slices_S512x32768_S512x2_0_0),
    TRef.binary (TRef.of (T := ⟨S512x32766, .f32⟩) main_call3_v0) (TRef.of (T := ⟨S512x2, .f32⟩) main_call3_v1) (TRef.of (T := ⟨S512x32768, .f32⟩) main_v28) (fun a b => concatenate S512x32768 1 [⟨S512x32766, a⟩, ⟨S512x2, b⟩] concatenates_S512x32766_S512x2_S512x32768_d1),
    nullary main_cst_10 (constant S_ .f32 0x3F800000#32),
    unary main_cst_10 main_v29 (broadcastInDim S512x32768 ![] bcast_S_S512x32768 : (⟨S_, .f32⟩ : BufTy).Contents (Elt F) → (⟨S512x32768, .f32⟩ : BufTy).Contents (Elt F)),
    binary main_v29 main_v27 main_v30 (addf : (⟨S512x32768, .f32⟩ : BufTy).Contents (Elt F) → (⟨S512x32768, .f32⟩ : BufTy).Contents (Elt F) → (⟨S512x32768, .f32⟩ : BufTy).Contents (Elt F)),
    binary main_v30 main_v28 main_v31 (addf : (⟨S512x32768, .f32⟩ : BufTy).Contents (Elt F) → (⟨S512x32768, .f32⟩ : BufTy).Contents (Elt F) → (⟨S512x32768, .f32⟩ : BufTy).Contents (Elt F)),
    nullary main_cst_11 (constant S_ .f32 0x40000000#32),
    unary main_cst_11 main_v32 (broadcastInDim S512x32768 ![] bcast_S_S512x32768 : (⟨S_, .f32⟩ : BufTy).Contents (Elt F) → (⟨S512x32768, .f32⟩ : BufTy).Contents (Elt F)),
    binary main_v32 main_v31 main_v33 (Host.divf : (⟨S512x32768, .f32⟩ : BufTy).Contents (Elt F) → (⟨S512x32768, .f32⟩ : BufTy).Contents (Elt F) → (⟨S512x32768, .f32⟩ : BufTy).Contents (Elt F)),
    nullary main_cst_12 (constant S_ .f32 0x3F800000#32),
    unary main_cst_12 main_v34 (broadcastInDim S512x32768 ![] bcast_S_S512x32768 : (⟨S_, .f32⟩ : BufTy).Contents (Elt F) → (⟨S512x32768, .f32⟩ : BufTy).Contents (Elt F)),
    binary main_v33 main_v34 main_v35 (minimumf : (⟨S512x32768, .f32⟩ : BufTy).Contents (Elt F) → (⟨S512x32768, .f32⟩ : BufTy).Contents (Elt F) → (⟨S512x32768, .f32⟩ : BufTy).Contents (Elt F)),
    binary main_v27 main_v35 main_v36 (mulf : (⟨S512x32768, .f32⟩ : BufTy).Contents (Elt F) → (⟨S512x32768, .f32⟩ : BufTy).Contents (Elt F) → (⟨S512x32768, .f32⟩ : BufTy).Contents (Elt F)),
    TRef.unary (TRef.of (T := ⟨S512x32768, .f32⟩) main_v36) (TRef.of (T := ⟨S512x32765, .f32⟩) main_call4_v0) (extractStridedSlice S512x32765 ![0, 3] · slices_S512x32768_S512x32765_0_3),
    TRef.unary (TRef.of (T := ⟨S512x32768, .f32⟩) main_v36) (TRef.of (T := ⟨S512x3, .f32⟩) main_call4_v1) (extractStridedSlice S512x3 ![0, 0] · slices_S512x32768_S512x3_0_0),
    TRef.binary (TRef.of (T := ⟨S512x32765, .f32⟩) main_call4_v0) (TRef.of (T := ⟨S512x3, .f32⟩) main_call4_v1) (TRef.of (T := ⟨S512x32768, .f32⟩) main_v37) (fun a b => concatenate S512x32768 1 [⟨S512x32765, a⟩, ⟨S512x3, b⟩] concatenates_S512x32765_S512x3_S512x32768_d1),
    nullary main_cst_13 (constant S_ .f32 0x3F800000#32),
    unary main_cst_13 main_v38 (broadcastInDim S512x32768 ![] bcast_S_S512x32768 : (⟨S_, .f32⟩ : BufTy).Contents (Elt F) → (⟨S512x32768, .f32⟩ : BufTy).Contents (Elt F)),
    binary main_v38 main_v36 main_v39 (addf : (⟨S512x32768, .f32⟩ : BufTy).Contents (Elt F) → (⟨S512x32768, .f32⟩ : BufTy).Contents (Elt F) → (⟨S512x32768, .f32⟩ : BufTy).Contents (Elt F)),
    binary main_v39 main_v37 main_v40 (addf : (⟨S512x32768, .f32⟩ : BufTy).Contents (Elt F) → (⟨S512x32768, .f32⟩ : BufTy).Contents (Elt F) → (⟨S512x32768, .f32⟩ : BufTy).Contents (Elt F)),
    nullary main_cst_14 (constant S_ .f32 0x40000000#32),
    unary main_cst_14 main_v41 (broadcastInDim S512x32768 ![] bcast_S_S512x32768 : (⟨S_, .f32⟩ : BufTy).Contents (Elt F) → (⟨S512x32768, .f32⟩ : BufTy).Contents (Elt F)),
    binary main_v41 main_v40 main_v42 (Host.divf : (⟨S512x32768, .f32⟩ : BufTy).Contents (Elt F) → (⟨S512x32768, .f32⟩ : BufTy).Contents (Elt F) → (⟨S512x32768, .f32⟩ : BufTy).Contents (Elt F)),
    nullary main_cst_15 (constant S_ .f32 0x3F800000#32),
    unary main_cst_15 main_v43 (broadcastInDim S512x32768 ![] bcast_S_S512x32768 : (⟨S_, .f32⟩ : BufTy).Contents (Elt F) → (⟨S512x32768, .f32⟩ : BufTy).Contents (Elt F)),
    binary main_v42 main_v43 main_v44 (minimumf : (⟨S512x32768, .f32⟩ : BufTy).Contents (Elt F) → (⟨S512x32768, .f32⟩ : BufTy).Contents (Elt F) → (⟨S512x32768, .f32⟩ : BufTy).Contents (Elt F)),
    binary main_v36 main_v44 main_v45 (mulf : (⟨S512x32768, .f32⟩ : BufTy).Contents (Elt F) → (⟨S512x32768, .f32⟩ : BufTy).Contents (Elt F) → (⟨S512x32768, .f32⟩ : BufTy).Contents (Elt F)),
    TRef.unary (TRef.of (T := ⟨S512x32768, .f32⟩) main_v45) (TRef.of (T := ⟨S512x32764, .f32⟩) main_call5_v0) (extractStridedSlice S512x32764 ![0, 4] · slices_S512x32768_S512x32764_0_4),
    TRef.unary (TRef.of (T := ⟨S512x32768, .f32⟩) main_v45) (TRef.of (T := ⟨S512x4, .f32⟩) main_call5_v1) (extractStridedSlice S512x4 ![0, 0] · slices_S512x32768_S512x4_0_0),
    TRef.binary (TRef.of (T := ⟨S512x32764, .f32⟩) main_call5_v0) (TRef.of (T := ⟨S512x4, .f32⟩) main_call5_v1) (TRef.of (T := ⟨S512x32768, .f32⟩) main_v46) (fun a b => concatenate S512x32768 1 [⟨S512x32764, a⟩, ⟨S512x4, b⟩] concatenates_S512x32764_S512x4_S512x32768_d1),
    nullary main_cst_16 (constant S_ .f32 0x3F800000#32),
    unary main_cst_16 main_v47 (broadcastInDim S512x32768 ![] bcast_S_S512x32768 : (⟨S_, .f32⟩ : BufTy).Contents (Elt F) → (⟨S512x32768, .f32⟩ : BufTy).Contents (Elt F)),
    binary main_v47 main_v45 main_v48 (addf : (⟨S512x32768, .f32⟩ : BufTy).Contents (Elt F) → (⟨S512x32768, .f32⟩ : BufTy).Contents (Elt F) → (⟨S512x32768, .f32⟩ : BufTy).Contents (Elt F)),
    binary main_v48 main_v46 main_v49 (addf : (⟨S512x32768, .f32⟩ : BufTy).Contents (Elt F) → (⟨S512x32768, .f32⟩ : BufTy).Contents (Elt F) → (⟨S512x32768, .f32⟩ : BufTy).Contents (Elt F)),
    nullary main_cst_17 (constant S_ .f32 0x40000000#32),
    unary main_cst_17 main_v50 (broadcastInDim S512x32768 ![] bcast_S_S512x32768 : (⟨S_, .f32⟩ : BufTy).Contents (Elt F) → (⟨S512x32768, .f32⟩ : BufTy).Contents (Elt F)),
    binary main_v50 main_v49 main_v51 (Host.divf : (⟨S512x32768, .f32⟩ : BufTy).Contents (Elt F) → (⟨S512x32768, .f32⟩ : BufTy).Contents (Elt F) → (⟨S512x32768, .f32⟩ : BufTy).Contents (Elt F)),
    nullary main_cst_18 (constant S_ .f32 0x3F800000#32),
    unary main_cst_18 main_v52 (broadcastInDim S512x32768 ![] bcast_S_S512x32768 : (⟨S_, .f32⟩ : BufTy).Contents (Elt F) → (⟨S512x32768, .f32⟩ : BufTy).Contents (Elt F)),
    binary main_v51 main_v52 main_v53 (minimumf : (⟨S512x32768, .f32⟩ : BufTy).Contents (Elt F) → (⟨S512x32768, .f32⟩ : BufTy).Contents (Elt F) → (⟨S512x32768, .f32⟩ : BufTy).Contents (Elt F)),
    binary main_v45 main_v53 main_v54 (mulf : (⟨S512x32768, .f32⟩ : BufTy).Contents (Elt F) → (⟨S512x32768, .f32⟩ : BufTy).Contents (Elt F) → (⟨S512x32768, .f32⟩ : BufTy).Contents (Elt F)),
    nullary main_c (constantI S_ 32 0#32),
    unary main_c main_v55 (broadcastInDim S1 ![] bcast_S_S1 : (⟨S_, .i32⟩ : BufTy).Contents (Elt F) → (⟨S1, .i32⟩ : BufTy).Contents (Elt F)),
    nullary main_cst_19 (constant S_ .f32 0x00000000#32),
    unary main_cst_19 main_v56 (broadcastInDim S512 ![] bcast_S_S512 : (⟨S_, .f32⟩ : BufTy).Contents (Elt F) → (⟨S512, .f32⟩ : BufTy).Contents (Elt F)),
    ternary main_v54 main_v55 main_v56 main_v57 ((fun x i u => Host.scatter scatter_S512x32768_S1_S512_0_1_1_0 (fun _ b => b) x i u) : (⟨S512x32768, .f32⟩ : BufTy).Contents (Elt F) → (⟨S1, .i32⟩ : BufTy).Contents (Elt F) → (⟨S512, .f32⟩ : BufTy).Contents (Elt F) → (⟨S512x32768, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., nullary_bufs_sub .., unary_bufs_sub .., binary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., binary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., nullary_bufs_sub .., unary_bufs_sub .., ternary_bufs_sub ..⟩

/-! ## The six stretches -/

/-- Operations 1–32: the temperature, the logistic matrix, the row sums, the scaled matrix `main_v18`. -/
abbrev stretch0 : List (HloOp τ sig (Elt F)) :=
  [ unary main_arg1 main_v0 (Host.exp : (⟨S_, .f32⟩ : BufTy).Contents (Elt F) → (⟨S_, .f32⟩ : BufTy).Contents (Elt F)),
    nullary main_cst (constant S_ .f32 0x3DCCCCCD#32),
    nullary main_cst_0 (constant S_ .f32 0x41200000#32),
    TRef.unary (TRef.of (T := ⟨S_, .f32⟩) main_cst) (TRef.of (T := ⟨S_, .f32⟩) main_call0_v0) id,
    TRef.binary (TRef.of (T := ⟨S_, .f32⟩) main_call0_v0) (TRef.of (T := ⟨S_, .f32⟩) main_v0) (TRef.of (T := ⟨S_, .f32⟩) main_call0_v1) maximumf,
    TRef.unary (TRef.of (T := ⟨S_, .f32⟩) main_cst_0) (TRef.of (T := ⟨S_, .f32⟩) main_call0_v2) id,
    TRef.binary (TRef.of (T := ⟨S_, .f32⟩) main_call0_v2) (TRef.of (T := ⟨S_, .f32⟩) main_call0_v1) (TRef.of (T := ⟨S_, .f32⟩) main_v1) minimumf,
    unary main_v1 main_v2 (broadcastInDim S512x32768 ![] bcast_S_S512x32768 : (⟨S_, .f32⟩ : BufTy).Contents (Elt F) → (⟨S512x32768, .f32⟩ : BufTy).Contents (Elt F)),
    binary main_arg0 main_v2 main_v3 (Host.divf : (⟨S512x32768, .f32⟩ : BufTy).Contents (Elt F) → (⟨S512x32768, .f32⟩ : BufTy).Contents (Elt F) → (⟨S512x32768, .f32⟩ : BufTy).Contents (Elt F)),
    unary main_v3 main_v4 (Host.negf : (⟨S512x32768, .f32⟩ : BufTy).Contents (Elt F) → (⟨S512x32768, .f32⟩ : BufTy).Contents (Elt F)),
    unary main_v4 main_v5 (Host.exp : (⟨S512x32768, .f32⟩ : BufTy).Contents (Elt F) → (⟨S512x32768, .f32⟩ : BufTy).Contents (Elt F)),
    nullary main_cst_1 (constant S_ .f32 0x3F800000#32),
    unary main_cst_1 main_v6 (broadcastInDim S512x32768 ![] bcast_S_S512x32768 : (⟨S_, .f32⟩ : BufTy).Contents (Elt F) → (⟨S512x32768, .f32⟩ : BufTy).Contents (Elt F)),
    binary main_v6 main_v5 main_v7 (addf : (⟨S512x32768, .f32⟩ : BufTy).Contents (Elt F) → (⟨S512x32768, .f32⟩ : BufTy).Contents (Elt F) → (⟨S512x32768, .f32⟩ : BufTy).Contents (Elt F)),
    nullary main_cst_2 (constant S_ .f32 0x3F800000#32),
    unary main_cst_2 main_v8 (broadcastInDim S512x32768 ![] bcast_S_S512x32768 : (⟨S_, .f32⟩ : BufTy).Contents (Elt F) → (⟨S512x32768, .f32⟩ : BufTy).Contents (Elt F)),
    binary main_v8 main_v7 main_v9 (Host.divf : (⟨S512x32768, .f32⟩ : BufTy).Contents (Elt F) → (⟨S512x32768, .f32⟩ : BufTy).Contents (Elt F) → (⟨S512x32768, .f32⟩ : BufTy).Contents (Elt F)),
    nullary main_cst_3 (constant S_ .f32 0x00000000#32),
    binary main_v9 main_cst_3 main_v10 ((fun x v => Host.reduceAdd x v reducesTo_S512x32768_S512_d1 h_S_) : (⟨S512x32768, .f32⟩ : BufTy).Contents (Elt F) → (⟨S_, .f32⟩ : BufTy).Contents (Elt F) → (⟨S512, .f32⟩ : BufTy).Contents (Elt F)),
    unary main_v10 main_v11 (broadcastInDim S512x1 ![0] bcast_S512_S512x1_0 : (⟨S512, .f32⟩ : BufTy).Contents (Elt F) → (⟨S512x1, .f32⟩ : BufTy).Contents (Elt F)),
    nullary main_cst_4 (constant S_ .f32 0x358637BD#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S512x1, .f32⟩) main_call1_v1) (broadcastInDim S512x1 ![] bcast_S_S512x1),
    TRef.binary (TRef.of (T := ⟨S512x1, .f32⟩) main_call1_v1) (TRef.of (T := ⟨S512x1, .f32⟩) main_v11) (TRef.of (T := ⟨S512x1, .f32⟩) main_v12) maximumf,
    nullary main_cst_5 (constant S_ .f32 0x42800000#32),
    unary main_cst_5 main_v13 (broadcastInDim S512x1 ![] bcast_S_S512x1 : (⟨S_, .f32⟩ : BufTy).Contents (Elt F) → (⟨S512x1, .f32⟩ : BufTy).Contents (Elt F)),
    binary main_v13 main_v12 main_v14 (Host.divf : (⟨S512x1, .f32⟩ : BufTy).Contents (Elt F) → (⟨S512x1, .f32⟩ : BufTy).Contents (Elt F) → (⟨S512x1, .f32⟩ : BufTy).Contents (Elt F)),
    nullary main_cst_6 (constant S_ .f32 0x3F800000#32),
    unary main_cst_6 main_v15 (broadcastInDim S512x1 ![] bcast_S_S512x1 : (⟨S_, .f32⟩ : BufTy).Contents (Elt F) → (⟨S512x1, .f32⟩ : BufTy).Contents (Elt F)),
    binary main_v14 main_v15 main_v16 (minimumf : (⟨S512x1, .f32⟩ : BufTy).Contents (Elt F) → (⟨S512x1, .f32⟩ : BufTy).Contents (Elt F) → (⟨S512x1, .f32⟩ : BufTy).Contents (Elt F)),
    unary main_v16 main_v17 (broadcastInDim S512x32768 ![0, 1] bcast_S512x1_S512x32768_0_1 : (⟨S512x1, .f32⟩ : BufTy).Contents (Elt F) → (⟨S512x32768, .f32⟩ : BufTy).Contents (Elt F)),
    binary main_v9 main_v17 main_v18 (mulf : (⟨S512x32768, .f32⟩ : BufTy).Contents (Elt F) → (⟨S512x32768, .f32⟩ : BufTy).Contents (Elt F) → (⟨S512x32768, .f32⟩ : BufTy).Contents (Elt F)) ]

/-- Operations 33–46: the damping pass at distance 1, `main_v18` to `main_v27`. -/
abbrev stretch1 : List (HloOp τ sig (Elt F)) :=
  [ TRef.unary (TRef.of (T := ⟨S512x32768, .f32⟩) main_v18) (TRef.of (T := ⟨S512x32767, .f32⟩) main_call2_v0) (extractStridedSlice S512x32767 ![0, 1] · slices_S512x32768_S512x32767_0_1),
    TRef.unary (TRef.of (T := ⟨S512x32768, .f32⟩) main_v18) (TRef.of (T := ⟨S512x1, .f32⟩) main_call2_v1) (extractStridedSlice S512x1 ![0, 0] · slices_S512x32768_S512x1_0_0),
    TRef.binary (TRef.of (T := ⟨S512x32767, .f32⟩) main_call2_v0) (TRef.of (T := ⟨S512x1, .f32⟩) main_call2_v1) (TRef.of (T := ⟨S512x32768, .f32⟩) main_v19) (fun a b => concatenate S512x32768 1 [⟨S512x32767, a⟩, ⟨S512x1, b⟩] concatenates_S512x32767_S512x1_S512x32768_d1),
    nullary main_cst_7 (constant S_ .f32 0x3F800000#32),
    unary main_cst_7 main_v20 (broadcastInDim S512x32768 ![] bcast_S_S512x32768 : (⟨S_, .f32⟩ : BufTy).Contents (Elt F) → (⟨S512x32768, .f32⟩ : BufTy).Contents (Elt F)),
    binary main_v20 main_v18 main_v21 (addf : (⟨S512x32768, .f32⟩ : BufTy).Contents (Elt F) → (⟨S512x32768, .f32⟩ : BufTy).Contents (Elt F) → (⟨S512x32768, .f32⟩ : BufTy).Contents (Elt F)),
    binary main_v21 main_v19 main_v22 (addf : (⟨S512x32768, .f32⟩ : BufTy).Contents (Elt F) → (⟨S512x32768, .f32⟩ : BufTy).Contents (Elt F) → (⟨S512x32768, .f32⟩ : BufTy).Contents (Elt F)),
    nullary main_cst_8 (constant S_ .f32 0x40000000#32),
    unary main_cst_8 main_v23 (broadcastInDim S512x32768 ![] bcast_S_S512x32768 : (⟨S_, .f32⟩ : BufTy).Contents (Elt F) → (⟨S512x32768, .f32⟩ : BufTy).Contents (Elt F)),
    binary main_v23 main_v22 main_v24 (Host.divf : (⟨S512x32768, .f32⟩ : BufTy).Contents (Elt F) → (⟨S512x32768, .f32⟩ : BufTy).Contents (Elt F) → (⟨S512x32768, .f32⟩ : BufTy).Contents (Elt F)),
    nullary main_cst_9 (constant S_ .f32 0x3F800000#32),
    unary main_cst_9 main_v25 (broadcastInDim S512x32768 ![] bcast_S_S512x32768 : (⟨S_, .f32⟩ : BufTy).Contents (Elt F) → (⟨S512x32768, .f32⟩ : BufTy).Contents (Elt F)),
    binary main_v24 main_v25 main_v26 (minimumf : (⟨S512x32768, .f32⟩ : BufTy).Contents (Elt F) → (⟨S512x32768, .f32⟩ : BufTy).Contents (Elt F) → (⟨S512x32768, .f32⟩ : BufTy).Contents (Elt F)),
    binary main_v18 main_v26 main_v27 (mulf : (⟨S512x32768, .f32⟩ : BufTy).Contents (Elt F) → (⟨S512x32768, .f32⟩ : BufTy).Contents (Elt F) → (⟨S512x32768, .f32⟩ : BufTy).Contents (Elt F)) ]

/-- Operations 47–60: the damping pass at distance 2, `main_v27` to `main_v36`. -/
abbrev stretch2 : List (HloOp τ sig (Elt F)) :=
  [ TRef.unary (TRef.of (T := ⟨S512x32768, .f32⟩) main_v27) (TRef.of (T := ⟨S512x32766, .f32⟩) main_call3_v0) (extractStridedSlice S512x32766 ![0, 2] · slices_S512x32768_S512x32766_0_2),
    TRef.unary (TRef.of (T := ⟨S512x32768, .f32⟩) main_v27) (TRef.of (T := ⟨S512x2, .f32⟩) main_call3_v1) (extractStridedSlice S512x2 ![0, 0] · slices_S512x32768_S512x2_0_0),
    TRef.binary (TRef.of (T := ⟨S512x32766, .f32⟩) main_call3_v0) (TRef.of (T := ⟨S512x2, .f32⟩) main_call3_v1) (TRef.of (T := ⟨S512x32768, .f32⟩) main_v28) (fun a b => concatenate S512x32768 1 [⟨S512x32766, a⟩, ⟨S512x2, b⟩] concatenates_S512x32766_S512x2_S512x32768_d1),
    nullary main_cst_10 (constant S_ .f32 0x3F800000#32),
    unary main_cst_10 main_v29 (broadcastInDim S512x32768 ![] bcast_S_S512x32768 : (⟨S_, .f32⟩ : BufTy).Contents (Elt F) → (⟨S512x32768, .f32⟩ : BufTy).Contents (Elt F)),
    binary main_v29 main_v27 main_v30 (addf : (⟨S512x32768, .f32⟩ : BufTy).Contents (Elt F) → (⟨S512x32768, .f32⟩ : BufTy).Contents (Elt F) → (⟨S512x32768, .f32⟩ : BufTy).Contents (Elt F)),
    binary main_v30 main_v28 main_v31 (addf : (⟨S512x32768, .f32⟩ : BufTy).Contents (Elt F) → (⟨S512x32768, .f32⟩ : BufTy).Contents (Elt F) → (⟨S512x32768, .f32⟩ : BufTy).Contents (Elt F)),
    nullary main_cst_11 (constant S_ .f32 0x40000000#32),
    unary main_cst_11 main_v32 (broadcastInDim S512x32768 ![] bcast_S_S512x32768 : (⟨S_, .f32⟩ : BufTy).Contents (Elt F) → (⟨S512x32768, .f32⟩ : BufTy).Contents (Elt F)),
    binary main_v32 main_v31 main_v33 (Host.divf : (⟨S512x32768, .f32⟩ : BufTy).Contents (Elt F) → (⟨S512x32768, .f32⟩ : BufTy).Contents (Elt F) → (⟨S512x32768, .f32⟩ : BufTy).Contents (Elt F)),
    nullary main_cst_12 (constant S_ .f32 0x3F800000#32),
    unary main_cst_12 main_v34 (broadcastInDim S512x32768 ![] bcast_S_S512x32768 : (⟨S_, .f32⟩ : BufTy).Contents (Elt F) → (⟨S512x32768, .f32⟩ : BufTy).Contents (Elt F)),
    binary main_v33 main_v34 main_v35 (minimumf : (⟨S512x32768, .f32⟩ : BufTy).Contents (Elt F) → (⟨S512x32768, .f32⟩ : BufTy).Contents (Elt F) → (⟨S512x32768, .f32⟩ : BufTy).Contents (Elt F)),
    binary main_v27 main_v35 main_v36 (mulf : (⟨S512x32768, .f32⟩ : BufTy).Contents (Elt F) → (⟨S512x32768, .f32⟩ : BufTy).Contents (Elt F) → (⟨S512x32768, .f32⟩ : BufTy).Contents (Elt F)) ]

/-- Operations 61–74: the damping pass at distance 3, `main_v36` to `main_v45`. -/
abbrev stretch3 : List (HloOp τ sig (Elt F)) :=
  [ TRef.unary (TRef.of (T := ⟨S512x32768, .f32⟩) main_v36) (TRef.of (T := ⟨S512x32765, .f32⟩) main_call4_v0) (extractStridedSlice S512x32765 ![0, 3] · slices_S512x32768_S512x32765_0_3),
    TRef.unary (TRef.of (T := ⟨S512x32768, .f32⟩) main_v36) (TRef.of (T := ⟨S512x3, .f32⟩) main_call4_v1) (extractStridedSlice S512x3 ![0, 0] · slices_S512x32768_S512x3_0_0),
    TRef.binary (TRef.of (T := ⟨S512x32765, .f32⟩) main_call4_v0) (TRef.of (T := ⟨S512x3, .f32⟩) main_call4_v1) (TRef.of (T := ⟨S512x32768, .f32⟩) main_v37) (fun a b => concatenate S512x32768 1 [⟨S512x32765, a⟩, ⟨S512x3, b⟩] concatenates_S512x32765_S512x3_S512x32768_d1),
    nullary main_cst_13 (constant S_ .f32 0x3F800000#32),
    unary main_cst_13 main_v38 (broadcastInDim S512x32768 ![] bcast_S_S512x32768 : (⟨S_, .f32⟩ : BufTy).Contents (Elt F) → (⟨S512x32768, .f32⟩ : BufTy).Contents (Elt F)),
    binary main_v38 main_v36 main_v39 (addf : (⟨S512x32768, .f32⟩ : BufTy).Contents (Elt F) → (⟨S512x32768, .f32⟩ : BufTy).Contents (Elt F) → (⟨S512x32768, .f32⟩ : BufTy).Contents (Elt F)),
    binary main_v39 main_v37 main_v40 (addf : (⟨S512x32768, .f32⟩ : BufTy).Contents (Elt F) → (⟨S512x32768, .f32⟩ : BufTy).Contents (Elt F) → (⟨S512x32768, .f32⟩ : BufTy).Contents (Elt F)),
    nullary main_cst_14 (constant S_ .f32 0x40000000#32),
    unary main_cst_14 main_v41 (broadcastInDim S512x32768 ![] bcast_S_S512x32768 : (⟨S_, .f32⟩ : BufTy).Contents (Elt F) → (⟨S512x32768, .f32⟩ : BufTy).Contents (Elt F)),
    binary main_v41 main_v40 main_v42 (Host.divf : (⟨S512x32768, .f32⟩ : BufTy).Contents (Elt F) → (⟨S512x32768, .f32⟩ : BufTy).Contents (Elt F) → (⟨S512x32768, .f32⟩ : BufTy).Contents (Elt F)),
    nullary main_cst_15 (constant S_ .f32 0x3F800000#32),
    unary main_cst_15 main_v43 (broadcastInDim S512x32768 ![] bcast_S_S512x32768 : (⟨S_, .f32⟩ : BufTy).Contents (Elt F) → (⟨S512x32768, .f32⟩ : BufTy).Contents (Elt F)),
    binary main_v42 main_v43 main_v44 (minimumf : (⟨S512x32768, .f32⟩ : BufTy).Contents (Elt F) → (⟨S512x32768, .f32⟩ : BufTy).Contents (Elt F) → (⟨S512x32768, .f32⟩ : BufTy).Contents (Elt F)),
    binary main_v36 main_v44 main_v45 (mulf : (⟨S512x32768, .f32⟩ : BufTy).Contents (Elt F) → (⟨S512x32768, .f32⟩ : BufTy).Contents (Elt F) → (⟨S512x32768, .f32⟩ : BufTy).Contents (Elt F)) ]

/-- Operations 75–88: the damping pass at distance 4, `main_v45` to `main_v54`. -/
abbrev stretch4 : List (HloOp τ sig (Elt F)) :=
  [ TRef.unary (TRef.of (T := ⟨S512x32768, .f32⟩) main_v45) (TRef.of (T := ⟨S512x32764, .f32⟩) main_call5_v0) (extractStridedSlice S512x32764 ![0, 4] · slices_S512x32768_S512x32764_0_4),
    TRef.unary (TRef.of (T := ⟨S512x32768, .f32⟩) main_v45) (TRef.of (T := ⟨S512x4, .f32⟩) main_call5_v1) (extractStridedSlice S512x4 ![0, 0] · slices_S512x32768_S512x4_0_0),
    TRef.binary (TRef.of (T := ⟨S512x32764, .f32⟩) main_call5_v0) (TRef.of (T := ⟨S512x4, .f32⟩) main_call5_v1) (TRef.of (T := ⟨S512x32768, .f32⟩) main_v46) (fun a b => concatenate S512x32768 1 [⟨S512x32764, a⟩, ⟨S512x4, b⟩] concatenates_S512x32764_S512x4_S512x32768_d1),
    nullary main_cst_16 (constant S_ .f32 0x3F800000#32),
    unary main_cst_16 main_v47 (broadcastInDim S512x32768 ![] bcast_S_S512x32768 : (⟨S_, .f32⟩ : BufTy).Contents (Elt F) → (⟨S512x32768, .f32⟩ : BufTy).Contents (Elt F)),
    binary main_v47 main_v45 main_v48 (addf : (⟨S512x32768, .f32⟩ : BufTy).Contents (Elt F) → (⟨S512x32768, .f32⟩ : BufTy).Contents (Elt F) → (⟨S512x32768, .f32⟩ : BufTy).Contents (Elt F)),
    binary main_v48 main_v46 main_v49 (addf : (⟨S512x32768, .f32⟩ : BufTy).Contents (Elt F) → (⟨S512x32768, .f32⟩ : BufTy).Contents (Elt F) → (⟨S512x32768, .f32⟩ : BufTy).Contents (Elt F)),
    nullary main_cst_17 (constant S_ .f32 0x40000000#32),
    unary main_cst_17 main_v50 (broadcastInDim S512x32768 ![] bcast_S_S512x32768 : (⟨S_, .f32⟩ : BufTy).Contents (Elt F) → (⟨S512x32768, .f32⟩ : BufTy).Contents (Elt F)),
    binary main_v50 main_v49 main_v51 (Host.divf : (⟨S512x32768, .f32⟩ : BufTy).Contents (Elt F) → (⟨S512x32768, .f32⟩ : BufTy).Contents (Elt F) → (⟨S512x32768, .f32⟩ : BufTy).Contents (Elt F)),
    nullary main_cst_18 (constant S_ .f32 0x3F800000#32),
    unary main_cst_18 main_v52 (broadcastInDim S512x32768 ![] bcast_S_S512x32768 : (⟨S_, .f32⟩ : BufTy).Contents (Elt F) → (⟨S512x32768, .f32⟩ : BufTy).Contents (Elt F)),
    binary main_v51 main_v52 main_v53 (minimumf : (⟨S512x32768, .f32⟩ : BufTy).Contents (Elt F) → (⟨S512x32768, .f32⟩ : BufTy).Contents (Elt F) → (⟨S512x32768, .f32⟩ : BufTy).Contents (Elt F)),
    binary main_v45 main_v53 main_v54 (mulf : (⟨S512x32768, .f32⟩ : BufTy).Contents (Elt F) → (⟨S512x32768, .f32⟩ : BufTy).Contents (Elt F) → (⟨S512x32768, .f32⟩ : BufTy).Contents (Elt F)) ]

/-- Operations 89–93: the zeros written down the first column, `main_v54` to `main_v57`. -/
abbrev stretch5 : List (HloOp τ sig (Elt F)) :=
  [ nullary main_c (constantI S_ 32 0#32),
    unary main_c main_v55 (broadcastInDim S1 ![] bcast_S_S1 : (⟨S_, .i32⟩ : BufTy).Contents (Elt F) → (⟨S1, .i32⟩ : BufTy).Contents (Elt F)),
    nullary main_cst_19 (constant S_ .f32 0x00000000#32),
    unary main_cst_19 main_v56 (broadcastInDim S512 ![] bcast_S_S512 : (⟨S_, .f32⟩ : BufTy).Contents (Elt F) → (⟨S512, .f32⟩ : BufTy).Contents (Elt F)),
    ternary main_v54 main_v55 main_v56 main_v57 ((fun x i u => Host.scatter scatter_S512x32768_S1_S512_0_1_1_0 (fun _ b => b) x i u) : (⟨S512x32768, .f32⟩ : BufTy).Contents (Elt F) → (⟨S1, .i32⟩ : BufTy).Contents (Elt F) → (⟨S512, .f32⟩ : BufTy).Contents (Elt F) → (⟨S512x32768, .f32⟩ : BufTy).Contents (Elt F)) ]

set_option maxRecDepth 8192 in
theorem ops_eq : (ops : List (HloOp τ sig (Elt F)))
    = stretch0 ++ (stretch1 ++ (stretch2 ++ (stretch3 ++ (stretch4 ++ stretch5)))) := rfl

/-- Operations in a row: the contents after both stretches are the second's from the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-! ## What each stretch ends with, from any contents in front of it -/

set_option maxRecDepth 8192 in
set_option maxHeartbeats 12800000 in
theorem stretch0_result (W : Valuation τ sig (Elt Ideal)) :
    after (stretch0 (F := Ideal)) W (Proc.devRef .tc main_v18)
      = refScaled (W (Proc.devRef .tc main_arg0)) (W (Proc.devRef .tc main_arg1)) := by
  after_results_simp
  rfl

set_option maxRecDepth 8192 in
set_option maxHeartbeats 5600000 in
theorem stretch1_result (W : Valuation τ sig (Elt Ideal)) :
    after (stretch1 (F := Ideal)) W (Proc.devRef .tc main_v27) = refPass1 (W (Proc.devRef .tc main_v18)) := by
  after_results_simp
  rfl

set_option maxRecDepth 8192 in
set_option maxHeartbeats 5600000 in
theorem stretch2_result (W : Valuation τ sig (Elt Ideal)) :
    after (stretch2 (F := Ideal)) W (Proc.devRef .tc main_v36) = refPass2 (W (Proc.devRef .tc main_v27)) := by
  after_results_simp
  rfl

set_option maxRecDepth 8192 in
set_option maxHeartbeats 5600000 in
theorem stretch3_result (W : Valuation τ sig (Elt Ideal)) :
    after (stretch3 (F := Ideal)) W (Proc.devRef .tc main_v45) = refPass3 (W (Proc.devRef .tc main_v36)) := by
  after_results_simp
  rfl

set_option maxRecDepth 8192 in
set_option maxHeartbeats 5600000 in
theorem stretch4_result (W : Valuation τ sig (Elt Ideal)) :
    after (stretch4 (F := Ideal)) W (Proc.devRef .tc main_v54) = refPass4 (W (Proc.devRef .tc main_v45)) := by
  after_results_simp
  rfl

set_option maxRecDepth 8192 in
set_option maxHeartbeats 2000000 in
theorem stretch5_result (W : Valuation τ sig (Elt Ideal)) :
    after (stretch5 (F := Ideal)) W (Proc.devRef .tc main_v57) = refClear (W (Proc.devRef .tc main_v54)) := by
  after_results_simp
  rfl

/-- The result's buffer after all 93 operations: the six stretches composed. -/
theorem result_eq (m : (ℓ : Loc nD τ sig) → Buf (Elt Ideal) ℓ) (c : Dev nD) :
    after (ops (F := Ideal)) (launchContents m c) (Proc.devRef .tc main_v57)
      = refSelect (m ((c.tc : Thread nD τ).loc main_arg0)) (m ((c.tc : Thread nD τ).loc main_arg1)) := by
  rw [ops_eq, after_append, after_append, after_append, after_append, after_append,
    stretch5_result, stretch4_result, stretch3_result, stretch2_result, stretch1_result, stretch0_result]
  rfl

set_option maxRecDepth 8192 in
set_option maxHeartbeats 37200000 in
/-- On every device, from any memory with zero counters: every weakly fair execution of @main terminates with the
    result at `refSelect` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57)
        = refSelect (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v57).trans (result_eq m c),
      (h c main_arg0).trans (by after_results_simp <;> rfl),
      (h c main_arg1).trans (by after_results_simp <;> rfl)⟩)
    (run_seq scopedRefs_eq scopedSems_eq defs main (fun _ => ops) main_eq (fun _ => ops_sub) m ρ)

end Cert.Selector.RefRun

end
-- ==== Proof.lean ====
/-
  A soft top-K selector with neighbour damping, as a kernel over blocks of 32 whole rows and as host array
  operations over the whole 512 × 32768 matrix: the two end with the same array on the extended reals.

  For a row of scores `x` and a temperature `τ = min (10, max (0.1, exp t))` both compute
    s(c) = logistic (x(c) / τ),   B = max (ε, Σ_c s(c)),   y₀(c) = s(c) · min (64 / B, 1),
    y_d(c) = y_{d-1}(c) · min (2 / ((1 + y_{d-1}(c)) + y_{d-1}(c + d)), 1)   for d = 1, 2, 3, 4 (columns around the end),
  and return `0` in column 0 and `y₄` elsewhere (Proof/RowSpec.lean). The two programs spell the steps differently —
  the kernel's one logistic operation against the host's `1 / (1 + exp (−z))`; a lane sum kept as a column against a
  host `reduce` and two broadcasts; a rotation of the block along its rows by `32768 − d` against the matrix cut
  after `d` columns and rejoined the other way round; an iota mask against a scatter of zeros down column 0 — but
  each spelling, read at `(row, column)`, is the same row step (Proof/KernelSteps.lean, Proof/HostSteps.lean). No step
  rearranges a sum or cancels a factor, so nothing here needs the inputs to be finite.

  The kernel's result array is assembled from what its 16 grid points write back (Proof/KernelValue.lean, over the
  generated frame run); the reference's is the term its run ends at (Proof/RefRun.lean, Proof/RefValue.lean); both
  are `selectMatrix (temperature t) scores`. The three frame claims are the generated frame runs; the idealization
  rewrote nothing, so `preserves` is `True`.
-/
import proofs.«151350_j7705171329190_1_alg».proof.Defs
import proofs.«151350_j7705171329190_1_alg».proof.Proof.Gen.Kernel
import proofs.«151350_j7705171329190_1_alg».proof.Proof.Gen.Kernel.Skeleton
import proofs.«151350_j7705171329190_1_alg».proof.Proof.Gen.Kernel.Launch
import proofs.«151350_j7705171329190_1_alg».proof.Proof.Gen.Kernel.Points
import proofs.«151350_j7705171329190_1_alg».proof.Proof.Gen.Kernel.Frame
import proofs.«151350_j7705171329190_1_alg».proof.Proof.Gen.KernelIdeal
import proofs.«151350_j7705171329190_1_alg».proof.Proof.Gen.KernelIdeal.Skeleton
import proofs.«151350_j7705171329190_1_alg».proof.Proof.Gen.KernelIdeal.Launch
import proofs.«151350_j7705171329190_1_alg».proof.Proof.Gen.KernelIdeal.Points
import proofs.«151350_j7705171329190_1_alg».proof.Proof.Gen.KernelIdeal.Frame
import proofs.«151350_j7705171329190_1_alg».proof.Proof.Gen.KernelIdeal.Value
import proofs.«151350_j7705171329190_1_alg».proof.Proof.Gen.ReferenceIdeal
import proofs.«151350_j7705171329190_1_alg».proof.Proof.Gen.Pre_finite_inputs
import proofs.«151350_j7705171329190_1_alg».proof.Proof.KernelValue
import proofs.«151350_j7705171329190_1_alg».proof.Proof.RefValue
import proofs.«151350_j7705171329190_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.Selector.RefRun.run m ρ)

/-- The idealization rewrote no operation. -/
theorem preserves : Cert.preserves_Kernel_KernelIdeal := trivial

/-- From memories agreeing on the scores and the log-temperature, both programs end with the selected matrix of the
    scores at the clipped temperature. -/
theorem algebraic : Cert.algebraic_KernelIdeal_ReferenceIdeal := by
  intro m ρ m' ρ' _ hagree
  refine ⟨fun c => Cert.Selector.selectMatrix
      (Cert.Selector.temperature (m ((c.tc : Thread Cert.KernelIdeal.nD Cert.KernelIdeal.τ).loc Cert.KernelIdeal.main_arg1) ValueIdx.ix0))
      (m ((c.tc : Thread Cert.KernelIdeal.nD Cert.KernelIdeal.τ).loc Cert.KernelIdeal.main_arg0)),
    Cert.Selector.kernel_run m ρ, ?_⟩
  refine (θ_run Cert.ReferenceIdeal.defs _ _).mono (fun _ h c => ⟨(h c).1.trans ?_, (h c).2⟩)
    (Cert.Selector.RefRun.run m' ρ')
  rw [(hagree c).1, (hagree c).2]
  exact Cert.Selector.refSelect_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
